-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x128 : Shape := ⟨2, ![5000, 128]⟩
abbrev S5000x16 : Shape := ⟨2, ![5000, 16]⟩
abbrev S3300000x16 : Shape := ⟨2, ![3300000, 16]⟩
abbrev S1x16 : Shape := ⟨2, ![1, 16]⟩
abbrev S100000x32 : Shape := ⟨2, ![100000, 32]⟩
abbrev S5000x32 : Shape := ⟨2, ![5000, 32]⟩
abbrev S3300000x32 : Shape := ⟨2, ![3300000, 32]⟩
abbrev S1x32 : Shape := ⟨2, ![1, 32]⟩
abbrev S5000 : Shape := ⟨1, ![5000]⟩
abbrev S5000x1 : Shape := ⟨2, ![5000, 1]⟩

abbrev nBuf : Space → Nat
  | .hbm => 83
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x32, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x32, .f32⟩
  | .hbm, ⟨74, _⟩ => ⟨S3300000x1, .f32⟩
  | .hbm, ⟨75, _⟩ => ⟨S3300000x32, .f32⟩
  | .hbm, ⟨76, _⟩ => ⟨S3300000x32, .f32⟩
  | .hbm, ⟨77, _⟩ => ⟨S_, .f32⟩
  | .hbm, ⟨78, _⟩ => ⟨S100000x32, .f32⟩
  | .hbm, ⟨79, _⟩ => ⟨S3300000x1, .i32⟩
  | .hbm, ⟨80, _⟩ => ⟨S100000x32, .f32⟩
  | .hbm, ⟨81, _⟩ => ⟨S1x32, .f32⟩
  | .hbm, ⟨82, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S16x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S1x32, .f32⟩
  | .local _ .vmem, ⟨14, _⟩ => ⟨S5000x32, .f32⟩
  | .local _ .vmem, ⟨15, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x32_S16x32_0_0 : ∀ a, (![0, 0] : Fin 2 → Nat) a + S16x32.size a ≤ S16x32.size a
  h_S16x32 : 0 < S16x32.numel
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  reduces_S5000x32_S5000 : S5000x32.Reduces [1] S5000
  shapeCasts_S5000_S5000x1 : S5000.ShapeCasts S5000x1
  broadcasts_S5000x1_S5000x32 : S5000x1.Broadcasts S5000x32
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x16_S5000x16_1_0_0_1_n_n_wf : DotDims.WF S5000x128 S128x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x32_S5000x32_1_0_0_1_n_n_wf : DotDims.WF S5000x16 S16x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x32.size a ≤ S16x32.size a
  hwx1_2 : ∀ i : grid1.Coords, EltTy.bits .f32 = 32 ∨ (Rect.block (s := S16x32) S16x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x32 : Shape := ⟨2, ![100000, 32]⟩
abbrev S3300000x32 : Shape := ⟨2, ![3300000, 32]⟩
abbrev S1x32 : Shape := ⟨2, ![1, 32]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x32, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x32, .f32⟩
  | .hbm, ⟨79, _⟩ => ⟨S3300000x1, .f32⟩
  | .hbm, ⟨80, _⟩ => ⟨S3300000x32, .f32⟩
  | .hbm, ⟨81, _⟩ => ⟨S3300000x32, .f32⟩
  | .hbm, ⟨82, _⟩ => ⟨S_, .f32⟩
  | .hbm, ⟨83, _⟩ => ⟨S100000x32, .f32⟩
  | .hbm, ⟨84, _⟩ => ⟨S3300000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x32, .f32⟩
  | .hbm, ⟨96, _⟩ => ⟨S100000x32, .f32⟩
  | .hbm, ⟨97, _⟩ => ⟨S100000x32, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x32, .f32⟩
  | .hbm, ⟨103, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x32_S100000x32_1_0_0_1_n_n_wf : DotDims.WF S100000x16 S16x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

class Facts : Prop extends Facts₀ where

variable [Facts]
-- ==== Proof.Spec.lean ====
/-
  What the three dense stages of a two-layer graph convolution compute, as whole-array functions at the ideal
  instance (entries are extended reals, every operation exact).

  * `proj1 x w`: the first layer's projection, an [N, 128] by [128, 16] matrix product: entry (p, q) is the sum over
    k of x (p, k) · w (k, q).
  * `proj2 a β w`: the second layer's projection of the rectified first layer: entry (p, q) is the sum over k of
    max (a (p, k) + β k) 0 · w (k, q), where a is the aggregated first layer and β its bias.
  * `logSoftmax z β`: the row-wise log-softmax of z + β in its shifted form: with v k = z (p, k) + β k and M the
    maximum of v over the row (taken from −∞), entry (p, q) is (v q − M) − log (Σ k, exp (v k − M)).

  Each entry depends on ONE row of the first operand only, which is what lets a kernel compute these stages a block of
  rows at a time. The two float literals the programs use, 0 and −∞, are kept as their words.
-/
import Idealize.ShloMosaic.PureOps.Ideal
import Idealize.ShloMosaic.Lib.ValueIdx

noncomputable section

open scoped BigOperators

namespace Cert.Gcn

open Idealize.ShloMosaic Idealize.ShloMosaic.ValueIdx

/-- The word of −∞, the value a row maximum starts from. -/
abbrev negInf : Ideal .f32 := Ideal.ofBits .f32 0xFF800000#32
/-- The word of 0, the threshold of the rectifier. -/
abbrev zeroW : Ideal .f32 := Ideal.ofBits .f32 0x00000000#32

/-- The first layer's projection: x · w. -/
def proj1 (x : FVec Ideal ⟨2, ![100000, 128]⟩ .f32) (w : FVec Ideal ⟨2, ![128, 16]⟩ .f32) : FVec Ideal ⟨2, ![100000, 16]⟩ .f32 :=
  fun i => ∑ k : Fin 128, x (ix2 (i 0) k) * w (ix2 k (i 1))

/-- The second layer's projection of the rectified, biased first layer: relu (a + β) · w. -/
def proj2 (a : FVec Ideal ⟨2, ![100000, 16]⟩ .f32) (β : Fin 16 → Ideal .f32) (w : FVec Ideal ⟨2, ![16, 32]⟩ .f32) :
    FVec Ideal ⟨2, ![100000, 32]⟩ .f32 :=
  fun i => ∑ k : Fin 16, max (a (ix2 (i 0) k) + β k) zeroW * w (ix2 k (i 1))

/-- The maximum over row `p` of z + β, taken from −∞. -/
def rowMax (z : FVec Ideal ⟨2, ![100000, 32]⟩ .f32) (β : Fin 32 → Ideal .f32) (p : Fin 100000) : Ideal .f32 :=
  (Finset.univ : Finset (Fin 32)).fold max negInf (fun k => z (ix2 p k) + β k)

/-- The row-wise log-softmax of z + β, in its shifted form. -/
def logSoftmax (z : FVec Ideal ⟨2, ![100000, 32]⟩ .f32) (β : Fin 32 → Ideal .f32) : FVec Ideal ⟨2, ![100000, 32]⟩ .f32 :=
  fun i => (z (ix2 (i 0) (i 1)) + β (i 1) - rowMax z β (i 0))
    - Ideal.log (∑ k : Fin 32, Ideal.exp (z (ix2 (i 0) k) + β k - rowMax z β (i 0)))

end Cert.Gcn

end
-- ==== Proof.Stages.lean ====
/-
  The graph side of a graph convolution with symmetric normalization, as functions of arrays.

  Both programs build these by the same host operations. From the edge list (two rows of node numbers) each of the two
  rows is extended by one self loop per node (`srcIdx`, `dstIdx`); the degree of a node is the number of edges, self loop
  included, arriving at it (`degree`: a scatter-add of ones), its weight 1/√degree where the degree is positive and 0
  elsewhere (`invSqrtDeg`), and an edge's coefficient is the product of its two end nodes' weights (`edgeNorm`).
  One propagation step gathers the row of each edge's source node, scales it by the edge's coefficient and adds it up
  at the edge's target node (`aggregate16`, `aggregate32`: the same step on rows of 16 and of 32 lanes). A node number is
  used as a gather index after the usual wrap of negative numbers (`wrapIdx`) and as a scatter index as it is (`colIdx`).

  Nothing here is opened by the proof: the two programs apply these same functions, and only the dense stages
  between them differ.
-/
import proofs.«160578_j37391985279003_1_alg».proof.Proof.Gen.KernelIdeal
import Idealize.ShloMosaic.PureOps.Ideal

noncomputable section

namespace Cert.KernelIdeal.Stages

open Cert.KernelIdeal Cert.KernelIdeal.Gen Idealize.ShloMosaic Idealize.SL.Sem

/-- The source node of every edge, one self loop per node appended. -/
def srcIdx (e : IVec S2x3200000 32) : IVec S3300000 32 :=
  concatenate S3300000 0 [⟨S3200000, shapeCast S3200000 (extractStridedSlice S1x3200000 ![0, 0] e slices_S2x3200000_S1x3200000_0_0) shapeCasts_S1x3200000_S3200000⟩,
    ⟨S100000, iotaInDim S100000 32 0⟩] concatenates_S3200000_S100000_S3300000_d0

/-- The target node of every edge, one self loop per node appended. -/
def dstIdx (e : IVec S2x3200000 32) : IVec S3300000 32 :=
  concatenate S3300000 0 [⟨S3200000, shapeCast S3200000 (extractStridedSlice S1x3200000 ![1, 0] e slices_S2x3200000_S1x3200000_1_0) shapeCasts_S1x3200000_S3200000⟩,
    ⟨S100000, iotaInDim S100000 32 0⟩] concatenates_S3200000_S100000_S3300000_d0

/-- Node numbers as gather indices: a negative number counts from the end. -/
def wrapIdx (ix : IVec S3300000 32) : IVec S3300000x1 32 :=
  broadcastInDim S3300000x1 ![0] bcast_S3300000_S3300000x1_0
    (select (cmpi .slt ix (broadcastInDim S3300000 ![] bcast_S_S3300000 (constantI S_ 32 0#32)))
      (addi ix (broadcastInDim S3300000 ![] bcast_S_S3300000 (constantI S_ 32 100000#32))) ix)

/-- Node numbers as scatter indices. -/
def colIdx (ix : IVec S3300000 32) : IVec S3300000x1 32 :=
  broadcastInDim S3300000x1 ![0] bcast_S3300000_S3300000x1_0 ix

/-- The number of edges arriving at each node. -/
def degree (dst : IVec S3300000 32) : FVec Ideal S100000 .f32 :=
  Host.scatterAdd scatter_S100000_S3300000x1_S3300000_n_0_0_1
    (broadcastInDim S100000 ![] bcast_S_S100000 (constant S_ .f32 0x00000000#32)) (colIdx dst)
    (broadcastInDim S3300000 ![] bcast_S_S3300000 (constant S_ .f32 0x3F800000#32))

/-- 1/√degree where the degree is positive, 0 elsewhere. -/
def invSqrtDeg (dst : IVec S3300000 32) : FVec Ideal S100000 .f32 :=
  select (cmpf (F := Ideal) .ogt (degree dst) (broadcastInDim S100000 ![] bcast_S_S100000 (constant S_ .f32 0x00000000#32)))
    (Host.rsqrt (degree dst)) (broadcastInDim S100000 ![] bcast_S_S100000 (constant S_ .f32 0x00000000#32))

/-- Each edge's coefficient from the nodes' weights: the product of its end nodes' weights. -/
def edgeNormOf (wt : FVec Ideal S100000 .f32) (src dst : IVec S3300000 32) : FVec Ideal S3300000 .f32 :=
  mulf (Host.gather gather_S100000_S3300000x1_S3300000_n_0_n_n_0_1_1 wt (wrapIdx src))
    (Host.gather gather_S100000_S3300000x1_S3300000_n_0_n_n_0_1_1 wt (wrapIdx dst))

/-- Each edge's coefficient. -/
def edgeNorm (src dst : IVec S3300000 32) : FVec Ideal S3300000 .f32 := edgeNormOf (invSqrtDeg dst) src dst

/-- One propagation step on rows of 16 lanes. -/
def aggregate16 (h : FVec Ideal S100000x16 .f32) (src dst : IVec S3300000 32) (nrm : FVec Ideal S3300000 .f32) : FVec Ideal S100000x16 .f32 :=
  Host.scatterAdd scatter_S100000x16_S3300000x1_S3300000x16_1_0_0_1
    (broadcastInDim S100000x16 ![] bcast_S_S100000x16 (constant S_ .f32 0x00000000#32)) (colIdx dst)
    (mulf (Host.gather gather_S100000x16_S3300000x1_S3300000x16_1_0_n_n_0_1_116 h (wrapIdx src))
      (broadcastInDim S3300000x16 ![0, 1] bcast_S3300000x1_S3300000x16_0_1 (broadcastInDim S3300000x1 ![0] bcast_S3300000_S3300000x1_0 nrm)))

/-- One propagation step on rows of 32 lanes. -/
def aggregate32 (h : FVec Ideal S100000x32 .f32) (src dst : IVec S3300000 32) (nrm : FVec Ideal S3300000 .f32) : FVec Ideal S100000x32 .f32 :=
  Host.scatterAdd scatter_S100000x32_S3300000x1_S3300000x32_1_0_0_1
    (broadcastInDim S100000x32 ![] bcast_S_S100000x32 (constant S_ .f32 0x00000000#32)) (colIdx dst)
    (mulf (Host.gather gather_S100000x32_S3300000x1_S3300000x32_1_0_n_n_0_1_132 h (wrapIdx src))
      (broadcastInDim S3300000x32 ![0, 1] bcast_S3300000x1_S3300000x32_0_1 (broadcastInDim S3300000x1 ![0] bcast_S3300000_S3300000x1_0 nrm)))

end Cert.KernelIdeal.Stages

end
-- ==== Proof.Model.lean ====
/-
  The whole two-layer graph convolution as one function of the six arguments, at the ideal instance.

  x · w₁ is propagated along the edges, biased, rectified and projected by w₂ (`proj2`), propagated again, biased and
  passed through the row-wise log-softmax. The dense stages are Spec.lean's, the graph side Stages.lean's.
  Both programs are shown to end with their result array at this function of their arguments.
-/
import proofs.«160578_j37391985279003_1_alg».proof.Proof.Spec
import proofs.«160578_j37391985279003_1_alg».proof.Proof.Stages
import Idealize.ShloMosaic.Lib.ValueIdx

noncomputable section

namespace Cert.Gcn

open Cert.KernelIdeal Cert.KernelIdeal.Stages Idealize.ShloMosaic Idealize.ShloMosaic.ValueIdx

/-- The network's output as a function of features, edges, and the two layers' weights and biases. -/
def network (x : FVec Ideal S100000x128 .f32) (e : IVec S2x3200000 32) (w1 : FVec Ideal S128x16 .f32) (b1 : FVec Ideal S16 .f32)
    (w2 : FVec Ideal S16x32 .f32) (b2 : FVec Ideal S32 .f32) : FVec Ideal S100000x32 .f32 :=
  logSoftmax
    (aggregate32
      (proj2 (aggregate16 (proj1 x w1) (srcIdx e) (dstIdx e) (edgeNorm (srcIdx e) (dstIdx e))) (fun k => b1 (ix1 k)) w2)
      (srcIdx e) (dstIdx e) (edgeNorm (srcIdx e) (dstIdx e)))
    (fun k => b2 (ix1 k))

end Cert.Gcn

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.Layer1.lean ====
/-
  The first kernel: one block of 5000 rows of x at a time, times the whole of w.

  At grid point t the kernel loads rows 5000·t … 5000·t + 4999 of x and all of w, and stores their matrix product (into a
  zero accumulator; the change of float format on the way in is the identity at the ideal instance) into rows
  5000·t … 5000·t + 4999 of the result. An entry of a matrix product depends on one row of the left operand only, so
  what point t writes back is block t of the whole product `proj1 x w`, and the twenty blocks tile the result: after
  the last point the result array IS `proj1 x w`. This holds for whatever contents `V` the kernel finds on entry.
-/
import proofs.«160578_j37391985279003_1_alg».proof.Proof.Gen.KernelIdeal.Frame
import proofs.«160578_j37391985279003_1_alg».proof.Proof.Spec
import proofs.«160578_j37391985279003_1_alg».proof.Proof.LibMatmulAt
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## Where the product's two operand indices sit -/

theorem lhs_row (i : S5000x16.Idx) (q : dot_S5000x128_S128x16_S5000x16_1_0_0_1_n_n.contr.Idx) :
    (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
theorem lhs_contr (i : S5000x16.Idx) (q : dot_S5000x128_S128x16_S5000x16_1_0_0_1_n_n.contr.Idx) :
    (dot_S5000x128_S128x16_S5000x16_1_0_0_1_n_n.lhsIdx i q 1).val = (q ⟨0, by decide⟩).val :=
  dot_S5000x128_S128x16_S5000x16_1_0_0_1_n_n.lhsIdx_val_of_single rfl i q
theorem rhs_contr (i : S5000x16.Idx) (q : dot_S5000x128_S128x16_S5000x16_1_0_0_1_n_n.contr.Idx) :
    (dot_S5000x128_S128x16_S5000x16_1_0_0_1_n_n.rhsIdx i q 0).val = (q ⟨0, by decide⟩).val :=
  dot_S5000x128_S128x16_S5000x16_1_0_0_1_n_n.rhsIdx_val_of_single rfl i q
theorem rhs_col (i : S5000x16.Idx) (q : dot_S5000x128_S128x16_S5000x16_1_0_0_1_n_n.contr.Idx) :
    (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-! ## The body's stored value at an entry -/

/-- Entry (r, q) of what the body stores: the sum over k of the x block's (r, k) times w's (k, q). -/
theorem pay_apply (x0 : Vec Ideal S5000x128 .f32) (x1 : Vec Ideal S128x16 .f32) (r : Fin 5000) (q : Fin 16) :
    k0_pay1 x0 x1 (ix2 r q) = ∑ k : Fin 128, x0 (ix2 r k) * x1 (ix2 k q) := by
  unfold k0_pay1
  exact MatmulAt.matmul_zero_ix2 dot_S5000x128_S128x16_S5000x16_1_0_0_1_n_n rfl rfl lhs_row lhs_contr rhs_contr rhs_col none
    (truncf .bf16 x0 bitsLt_bf16_f32) (truncf .bf16 x1 bitsLt_bf16_f32) r q

/-! ## The blocks -/

/-- The printed index maps over the grid: the x block and the result block of point t are block row t, w is taken whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The x block of point t at (r, k) is x at (5000·t + r, k). -/
theorem xblk_apply (c : Dev nD) (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_arg0 : S100000x128.Idx → Ideal .f32) i := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The w block of any point is w. -/
theorem wblk_apply (c : Dev nD) (t : Fin cfg0.N) (y : S128x16.Idx) :
    (iblk0 V c 1 t : Vec Ideal S128x16 .f32) y = (V c main_arg2 : S128x16.Idx → Ideal .f32) y := by
  obtain ⟨-, -, e2, e3, -, -⟩ := idx_facts t
  unfold iblk0
  rw [View.read_apply]
  show V c main_arg2 _ = V c main_arg2 _
  congr 1
  funext a
  apply Fin.ext
  match a with
  | ⟨0, _⟩ => show win0_1.index t 0 * 128 + 1 * (y 0).val = (y 0).val; rw [e2]; omega
  | ⟨1, _⟩ => show win0_1.index t 1 * 16 + 1 * (y 1).val = (y 1).val; rw [e3]; omega

/-- WHAT POINT t WRITES BACK is block t of the whole product. -/
theorem flushed_eq (c : Dev nD) (t : Fin cfg0.N) :
    (dat0 V c).flushed 2 t = ((cfg0.win 2).blk t).view.read (Elt Ideal) (proj1 (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x16) hz]
  obtain ⟨-, -, -, -, e4, e5⟩ := idx_facts t
  funext j
  obtain ⟨r, q, rfl⟩ : ∃ (r : Fin 5000) (q : Fin 16), j = ix2 r q := ⟨j 0, j 1, eq_ix2 j⟩
  show k0_pay1 (iblk0 V c 0 t) (iblk0 V c 1 t) (ix2 r q) = proj1 (V c main_arg0) (V c main_arg2) (((cfg0.win 2).blk t).view.emb (ix2 r q))
  refine (pay_apply (iblk0 V c 0 t) (iblk0 V c 1 t) r q).trans ?_
  unfold proj1
  refine Finset.sum_congr rfl fun k _ => ?_
  have hr : ((((cfg0.win 2).blk t).view.emb (ix2 r q) : S100000x16.Idx) 0).val = 5000 * t.val + r.val := by
    show win0_2.index t 0 * 5000 + 1 * r.val = _; rw [e4]; omega
  have hq : ((((cfg0.win 2).blk t).view.emb (ix2 r q) : S100000x16.Idx) 1).val = q.val := by
    show win0_2.index t 1 * 16 + 1 * q.val = _; rw [e5]; omega
  rw [xblk_apply V c t (ix2 r k) (ix2 ((((cfg0.win 2).blk t).view.emb (ix2 r q) : S100000x16.Idx) 0) k) hr rfl,
    wblk_apply V c t (ix2 k q)]
  congr 2
  funext a
  apply Fin.ext
  match a with
  | ⟨0, _⟩ => rfl
  | ⟨1, _⟩ => exact hq.symm

/-- An index of the result is in point t's block iff its row is among rows 5000·t … 5000·t + 4999. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- Every index of the result is in the block of the point its row falls in. -/
theorem cover (i : S100000x16.Idx) : ∃ t : Fin cfg0.N, (cfg0.win 2).flush t = true ∧ i ∈ ((cfg0.win 2).blk t).view.set := by
  have hN : cfg0.N = 20 := N_0
  have h0 : (i 0).val < 100000 := (i 0).isLt
  have h1 : (i 1).val < 16 := (i 1).isLt
  let t : Fin cfg0.N := ⟨(i 0).val / 5000, by rw [hN]; omega⟩
  obtain ⟨-, -, -, -, e4, e5⟩ := idx_facts t
  have ht : t.val = (i 0).val / 5000 := rfl
  refine ⟨t, flush0_2 t, ?_⟩
  rw [mem_blk]
  intro a
  match a with
  | ⟨0, _⟩ => show win0_2.index t 0 * 5000 ≤ (i 0).val ∧ (i 0).val < win0_2.index t 0 * 5000 + 5000; rw [e4, ht]; omega
  | ⟨1, _⟩ => show win0_2.index t 1 * 16 ≤ (i 1).val ∧ (i 1).val < win0_2.index t 1 * 16 + 16; rw [e5]; omega

/-- THE RESULT ARRAY after the last point is the whole product of the x and w the kernel found on entry. -/
theorem final (c : Dev nD) : (dat0 V c).arrAt 2 cfg0.N = proj1 (V c main_arg0) (V c main_arg2) :=
  (dat0 V c).arrAt_eq_of_cover 2 (proj1 (V c main_arg0) (V c main_arg2)) (fun t _ => flushed_eq V c t) cover

end Cert.KernelIdeal.Layer1

end
-- ==== Proof.Layer2.lean ====
/-
  The second kernel: bias, rectifier and the second projection, one block of 5000 rows at a time.

  At grid point t the kernel loads rows 5000·t … 5000·t + 4999 of the aggregated first layer a, the bias as one row, and
  all of w; adds the bias to every row, takes the maximum with 0, and stores the product with w (into a zero accumulator;
  the change of float format on the way in is the identity at the ideal instance) into the same rows of the result.
  Entry (r, q) of what it stores is the sum over k of max (a (5000·t + r, k) + bias k) 0 · w (k, q): block t of
  `proj2 a bias w`, and the twenty blocks tile the result. This holds for whatever contents `V` the kernel finds.
-/
import proofs.«160578_j37391985279003_1_alg».proof.Proof.Gen.KernelIdeal.Frame
import proofs.«160578_j37391985279003_1_alg».proof.Proof.Spec
import proofs.«160578_j37391985279003_1_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## Where the product's two operand indices sit -/

theorem lhs_row (i : S5000x32.Idx) (q : dot_S5000x16_S16x32_S5000x32_1_0_0_1_n_n.contr.Idx) :
    (dot_S5000x16_S16x32_S5000x32_1_0_0_1_n_n.lhsIdx i q 0).val = (i 0).val := by
  unfold DotDims.lhsIdx
  rw [dif_neg (show ¬(0 : Fin S5000x16.rank) ∈ dot_S5000x16_S16x32_S5000x32_1_0_0_1_n_n.lhsBatch by decide), dif_pos (show (0 : Fin S5000x16.rank) ∈ dot_S5000x16_S16x32_S5000x32_1_0_0_1_n_n.lhsNonContracting by decide)]
  rfl
theorem lhs_contr (i : S5000x32.Idx) (q : dot_S5000x16_S16x32_S5000x32_1_0_0_1_n_n.contr.Idx) :
    (dot_S5000x16_S16x32_S5000x32_1_0_0_1_n_n.lhsIdx i q 1).val = (q ⟨0, by decide⟩).val :=
  dot_S5000x16_S16x32_S5000x32_1_0_0_1_n_n.lhsIdx_val_of_single rfl i q
theorem rhs_contr (i : S5000x32.Idx) (q : dot_S5000x16_S16x32_S5000x32_1_0_0_1_n_n.contr.Idx) :
    (dot_S5000x16_S16x32_S5000x32_1_0_0_1_n_n.rhsIdx i q 0).val = (q ⟨0, by decide⟩).val :=
  dot_S5000x16_S16x32_S5000x32_1_0_0_1_n_n.rhsIdx_val_of_single rfl i q
theorem rhs_col (i : S5000x32.Idx) (q : dot_S5000x16_S16x32_S5000x32_1_0_0_1_n_n.contr.Idx) :
    (dot_S5000x16_S16x32_S5000x32_1_0_0_1_n_n.rhsIdx i q 1).val = (i 1).val := by
  unfold DotDims.rhsIdx
  rw [dif_neg (show ¬(1 : Fin S16x32.rank) ∈ dot_S5000x16_S16x32_S5000x32_1_0_0_1_n_n.rhsBatch by decide), dif_pos (show (1 : Fin S16x32.rank) ∈ dot_S5000x16_S16x32_S5000x32_1_0_0_1_n_n.rhsNonContracting by decide)]
  rfl

/-! ## The body's stored value at an entry -/

/-- The rectified, biased block at (r, k): the bias row is read at (0, k) whatever the row r. -/
theorem relu_apply (x0 : FVec Ideal S5000x16 .f32) (x1 : FVec Ideal S1x16 .f32) (r : Fin 5000) (k : Fin 16) :
    maximumf (F := Ideal) (addf (F := Ideal) (shapeCast S5000x16 x0 shapeCasts_S5000x16_S5000x16)
        (broadcastTo S5000x16 (shapeCast S1x16 x1 shapeCasts_S1x16_S1x16) broadcasts_S1x16_S5000x16))
      (broadcast S5000x16 (Scalar.ofBits .f32 0x00000000#32)) (ix2 r k)
      = max (x0 (ix2 r k) + x1 (ix2 (0 : Fin 1) k)) zeroW := by
  show max (shapeCast S5000x16 x0 shapeCasts_S5000x16_S5000x16 (ix2 r k)
      + broadcastTo S5000x16 (shapeCast S1x16 x1 shapeCasts_S1x16_S1x16) broadcasts_S1x16_S5000x16 (ix2 r k)) zeroW = _
  rw [shapeCast_self, shapeCast_self, broadcastTo_1b_ab_apply]

/-- Entry (r, q) of what the body stores. -/
theorem pay_apply (x0 : Vec Ideal S5000x16 .f32) (x1 : Vec Ideal S1x16 .f32) (x2 : Vec Ideal S16x32 .f32) (r : Fin 5000) (q : Fin 32) :
    k1_pay1 x0 x1 x2 (ix2 r q) = ∑ k : Fin 16, max (x0 (ix2 r k) + x1 (ix2 (0 : Fin 1) k)) zeroW * x2 (ix2 k q) := by
  unfold k1_pay1
  refine (MatmulAt.matmul_zero_ix2 dot_S5000x16_S16x32_S5000x32_1_0_0_1_n_n rfl rfl lhs_row lhs_contr rhs_contr rhs_col none
    (truncf .bf16 (maximumf (addf (shapeCast S5000x16 x0 shapeCasts_S5000x16_S5000x16)
        (broadcastTo S5000x16 (shapeCast S1x16 x1 shapeCasts_S1x16_S1x16) broadcasts_S1x16_S5000x16))
      (broadcast S5000x16 (Scalar.ofBits .f32 0x00000000#32))) bitsLt_bf16_f32)
    (truncf .bf16 x2 bitsLt_bf16_f32) r q).trans ?_
  refine Finset.sum_congr rfl fun k _ => ?_
  exact congrArg (· * x2 (ix2 k q)) (relu_apply x0 x1 r k)

/-! ## The blocks -/

/-- Grid point t is below twenty, so its rows are rows of the array. -/
theorem row_lt (t : Fin cfg1.N) (r : Fin 5000) : 5000 * t.val + r.val < 100000 := by
  have hN : cfg1.N = 20 := N_1
  have := t.isLt; have := r.isLt; omega

/-- The printed index maps over the grid: the a block and the result block of point t are block row t; the bias row and w
    are taken whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The a block of point t at (r, k) is a at (5000·t + r, k). -/
theorem ablk_at (c : Dev nD) (t : Fin cfg1.N) (r : Fin 5000) (k : Fin 16) :
    (iblk1 V c 0 t : Vec Ideal S5000x16 .f32) (ix2 r k)
      = (V c main_v43 : S100000x16.Idx → Ideal .f32) (ix2 (⟨5000 * t.val + r.val, row_lt t r⟩ : Fin 100000) k) := by
  obtain ⟨e0, e1, -, -, -, -, -, -⟩ := idx_facts t
  unfold iblk1
  rw [View.read_apply]
  show V c main_v43 _ = V c main_v43 _
  congr 1
  funext a
  apply Fin.ext
  match a with
  | ⟨0, _⟩ => show win1_0.index t 0 * 5000 + 1 * r.val = 5000 * t.val + r.val; rw [e0]; omega
  | ⟨1, _⟩ => show win1_0.index t 1 * 16 + 1 * k.val = k.val; rw [e1]; omega

/-- The bias row's block at any point is the bias row. -/
theorem bblk_at (c : Dev nD) (t : Fin cfg1.N) (k : Fin 16) :
    (iblk1 V c 1 t : Vec Ideal S1x16 .f32) (ix2 (0 : Fin 1) k) = (V c main_v44 : S1x16.Idx → Ideal .f32) (ix2 (0 : Fin 1) k) := by
  obtain ⟨-, -, e2, e3, -, -, -, -⟩ := idx_facts t
  unfold iblk1
  rw [View.read_apply]
  show V c main_v44 _ = V c main_v44 _
  congr 1
  funext a
  apply Fin.ext
  match a with
  | ⟨0, _⟩ => show win1_1.index t 0 * 1 + 1 * 0 = 0; rw [e2]
  | ⟨1, _⟩ => show win1_1.index t 1 * 16 + 1 * k.val = k.val; rw [e3]; omega

/-- The w block of any point is w. -/
theorem wblk_at (c : Dev nD) (t : Fin cfg1.N) (k : Fin 16) (q : Fin 32) :
    (iblk1 V c 2 t : Vec Ideal S16x32 .f32) (ix2 k q) = (V c main_arg4 : S16x32.Idx → Ideal .f32) (ix2 k q) := by
  obtain ⟨-, -, -, -, e4, e5, -, -⟩ := idx_facts t
  unfold iblk1
  rw [View.read_apply]
  show V c main_arg4 _ = V c main_arg4 _
  congr 1
  funext a
  apply Fin.ext
  match a with
  | ⟨0, _⟩ => show win1_2.index t 0 * 16 + 1 * k.val = k.val; rw [e4]; omega
  | ⟨1, _⟩ => show win1_2.index t 1 * 32 + 1 * q.val = q.val; rw [e5]; omega

/-- The result block of point t sits at rows 5000·t …. -/
theorem oblk_emb (t : Fin cfg1.N) (r : Fin 5000) (q : Fin 32) :
    (((cfg1.win 3).blk t).view.emb (ix2 r q) : S100000x32.Idx) = ix2 (⟨5000 * t.val + r.val, row_lt t r⟩ : Fin 100000) q := by
  obtain ⟨-, -, -, -, -, -, e6, e7⟩ := idx_facts t
  funext a
  apply Fin.ext
  match a with
  | ⟨0, _⟩ => show win1_3.index t 0 * 5000 + 1 * r.val = 5000 * t.val + r.val; rw [e6]; omega
  | ⟨1, _⟩ => show win1_3.index t 1 * 32 + 1 * q.val = q.val; rw [e7]; omega

/-- The bias the kernel finds on entry, as a function of the lane. -/
abbrev biasOf (c : Dev nD) : Fin 16 → Ideal .f32 := fun k => (V c main_v44 : S1x16.Idx → Ideal .f32) (ix2 (0 : Fin 1) k)

/-- WHAT POINT t WRITES BACK is block t of the whole projection. -/
theorem flushed_eq (c : Dev nD) (t : Fin cfg1.N) :
    (dat1 V c).flushed 3 t = ((cfg1.win 3).blk t).view.read (Elt Ideal) (proj2 (V c main_v43) (biasOf V c) (V c main_arg4)) := by
  show (cfg1.win 3).cut (grid1.coords t) ((dat1 V c).after 3 t) = _
  rw [after1_3]
  unfold out1_3
  rw [View.canon_unit_zero hz]
  simp only [View.ld_unit_zero (S := S5000x16) hz, View.ld_unit_zero (S := S1x16) hz, View.ld_unit_zero (S := S16x32) hz]
  funext j
  obtain ⟨r, q, rfl⟩ : ∃ (r : Fin 5000) (q : Fin 32), j = ix2 r q := ⟨j 0, j 1, eq_ix2 j⟩
  show k1_pay1 (iblk1 V c 0 t) (iblk1 V c 1 t) (iblk1 V c 2 t) (ix2 r q)
    = proj2 (V c main_v43) (biasOf V c) (V c main_arg4) (((cfg1.win 3).blk t).view.emb (ix2 r q))
  rw [oblk_emb t r q]
  refine (pay_apply (iblk1 V c 0 t) (iblk1 V c 1 t) (iblk1 V c 2 t) r q).trans ?_
  unfold proj2
  refine Finset.sum_congr rfl fun k _ => ?_
  rw [ablk_at V c t r k, bblk_at V c t k, wblk_at V c t k q]

/-- An index of the result is in point t's block iff its row is among rows 5000·t … 5000·t + 4999. -/
theorem mem_blk (t : Fin cfg1.N) (i : S100000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v45).slice (win1_3.rect t)).set ↔ _
  rw [View.set_slice_whole, Rect.mem_set_unit]
  exact Iff.rfl

/-- Every index of the result is in the block of the point its row falls in. -/
theorem cover (i : S100000x32.Idx) : ∃ t : Fin cfg1.N, (cfg1.win 3).flush t = true ∧ i ∈ ((cfg1.win 3).blk t).view.set := by
  have hN : cfg1.N = 20 := N_1
  have h0 : (i 0).val < 100000 := (i 0).isLt
  have h1 : (i 1).val < 32 := (i 1).isLt
  let t : Fin cfg1.N := ⟨(i 0).val / 5000, by rw [hN]; omega⟩
  obtain ⟨-, -, -, -, -, -, e6, e7⟩ := idx_facts t
  have ht : t.val = (i 0).val / 5000 := rfl
  refine ⟨t, flush1_3 t, ?_⟩
  rw [mem_blk]
  intro a
  match a with
  | ⟨0, _⟩ => show win1_3.index t 0 * 5000 ≤ (i 0).val ∧ (i 0).val < win1_3.index t 0 * 5000 + 5000; rw [e6, ht]; omega
  | ⟨1, _⟩ => show win1_3.index t 1 * 32 ≤ (i 1).val ∧ (i 1).val < win1_3.index t 1 * 32 + 32; rw [e7]; omega

/-- THE RESULT ARRAY after the last point is the whole projection of what the kernel found on entry. -/
theorem final (c : Dev nD) : (dat1 V c).arrAt 3 cfg1.N = proj2 (V c main_v43) (biasOf V c) (V c main_arg4) :=
  (dat1 V c).arrAt_eq_of_cover 3 (proj2 (V c main_v43) (biasOf V c) (V c main_arg4)) (fun t _ => flushed_eq V c t) cover

end Cert.KernelIdeal.Layer2

end
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.LogSoftmax.lean ====
/-
  The third kernel: bias and the row-wise log-softmax, one block of 5000 rows at a time.

  At grid point t the kernel loads rows 5000·t … 5000·t + 4999 of the aggregated second layer z and the bias as one row,
  forms v = z + bias, takes each row's maximum M (from −∞), and stores (v − M) − log (Σ exp (v − M)), the sum over the row,
  into the same rows of the result. Every entry depends on its own row of z only, so what point t writes back is block
  t of `logSoftmax z bias`, and the twenty blocks tile the result. This holds for whatever contents `V` the kernel finds.
-/
import proofs.«160578_j37391985279003_1_alg».proof.Proof.Gen.KernelIdeal.Frame
import proofs.«160578_j37391985279003_1_alg».proof.Proof.Spec
import proofs.«160578_j37391985279003_1_alg».proof.Proof.LibColumnCast
import proofs.«160578_j37391985279003_1_alg».proof.Proof.LibColBroadcast
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.LogSoftmax

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## The reductions over a row and the column layouts, read at an entry -/

/-- The reduced index r with the lane k put back is (r, k). -/
theorem lift_row (r : Fin 5000) (k : Fin (S5000x32.size 1)) :
    reduces_S5000x32_S5000.lift (ix1 r) k = ix2 r (⟨k.val, k.isLt⟩ : Fin 32) := by
  funext a; apply Fin.ext
  fin_cases a <;> rfl

/-- A row's maximum, from −∞, is the fold of max over the row's lanes. -/
theorem rowmax_apply (y : FVec Ideal S5000x32 .f32) (r : Fin 5000) :
    multiReduction .maximumf [1] S5000 y 0xFF800000#32 reduces_S5000x32_S5000 (.inl rfl) rfl (ix1 r)
      = (Finset.univ : Finset (Fin 32)).fold max negInf (fun k => y (ix2 r k)) :=
  (Ideal.multiReduction_maximumf_single y 0xFF800000#32 reduces_S5000x32_S5000 (.inl rfl) rfl (ix1 r)).trans
    (congrArg (fun f : Fin 32 → Ideal .f32 => Finset.fold max negInf f (Finset.univ : Finset (Fin 32)))
      (funext fun k => congrArg y (lift_row r k)))

/-- A row's sum is the sum over the row's lanes. -/
theorem rowsum_apply (y : FVec Ideal S5000x32 .f32) (r : Fin 5000) :
    multiReduction .add [1] S5000 y 0x00000000#32 reduces_S5000x32_S5000 (.inl rfl) rfl (ix1 r) = ∑ k : Fin 32, y (ix2 r k) :=
  (Ideal.multiReduction_add_single y 0x00000000#32 reduces_S5000x32_S5000 (.inl rfl) rfl (ix1 r)).trans
    (Finset.sum_congr rfl fun k _ => congrArg y (lift_row r k))

/-- A per-row value stood up as a column and spread over the lanes reads, at (r, q), the value of row r. -/
theorem col_spread (u : FVec Ideal S5000 .f32) (r : Fin 5000) (q : Fin 32) :
    broadcastTo S5000x32 (shapeCast S5000x1 u shapeCasts_S5000_S5000x1) broadcasts_S5000x1_S5000x32 (ix2 r q) = u (ix1 r) := by
  rw [Cert.LibColBroadcast.broadcastTo_a1_ab_apply, Cert.LibColumnCast.shapeCast_a_a1_apply]

/-- The same through a logarithm taken on the column. -/
theorem logcol_spread (u : FVec Ideal S5000 .f32) (r : Fin 5000) (q : Fin 32) :
    broadcastTo S5000x32 (log (shapeCast S5000x1 u shapeCasts_S5000_S5000x1)) broadcasts_S5000x1_S5000x32 (ix2 r q) = Ideal.log (u (ix1 r)) := by
  rw [Cert.LibColBroadcast.broadcastTo_a1_ab_apply]
  show Ideal.log (shapeCast S5000x1 u shapeCasts_S5000_S5000x1 (ix2 r (0 : Fin 1))) = _
  rw [Cert.LibColumnCast.shapeCast_a_a1_apply]

/-! ## The body's stored value at an entry -/

/-- The body's arithmetic from the biased block `v` on. -/
def shifted (v : FVec Ideal S5000x32 .f32) : FVec Ideal S5000x32 .f32 :=
  subf (subf v (broadcastTo S5000x32 (shapeCast S5000x1 (multiReduction .maximumf [1] S5000 v 0xFF800000#32 reduces_S5000x32_S5000 (.inl rfl) rfl) shapeCasts_S5000_S5000x1) broadcasts_S5000x1_S5000x32))
    (broadcastTo S5000x32 (log (shapeCast S5000x1 (multiReduction .add [1] S5000
      (exp (subf v (broadcastTo S5000x32 (shapeCast S5000x1 (multiReduction .maximumf [1] S5000 v 0xFF800000#32 reduces_S5000x32_S5000 (.inl rfl) rfl) shapeCasts_S5000_S5000x1) broadcasts_S5000x1_S5000x32)))
      0x00000000#32 reduces_S5000x32_S5000 (.inl rfl) rfl) shapeCasts_S5000_S5000x1)) broadcasts_S5000x1_S5000x32)

/-- Entry (r, q) of it: (v − M) − log Σ exp (v − M), M the maximum of row r. -/
theorem shifted_apply (v : FVec Ideal S5000x32 .f32) (r : Fin 5000) (q : Fin 32) :
    shifted v (ix2 r q) = (v (ix2 r q) - (Finset.univ : Finset (Fin 32)).fold max negInf (fun k => v (ix2 r k)))
      - Ideal.log (∑ k : Fin 32, Ideal.exp (v (ix2 r k) - (Finset.univ : Finset (Fin 32)).fold max negInf (fun k => v (ix2 r k)))) := by
  unfold shifted
  show (v (ix2 r q) - broadcastTo S5000x32 _ broadcasts_S5000x1_S5000x32 (ix2 r q))
      - broadcastTo S5000x32 (log _) broadcasts_S5000x1_S5000x32 (ix2 r q) = _
  rw [col_spread, logcol_spread, rowmax_apply, rowsum_apply]
  refine congrArg₂ (fun a b : Ideal .f32 => a - b) rfl (congrArg Ideal.log (Finset.sum_congr rfl fun k _ => ?_))
  show Ideal.exp (v (ix2 r k) - broadcastTo S5000x32 _ broadcasts_S5000x1_S5000x32 (ix2 r k)) = _
  rw [col_spread, rowmax_apply]

/-- The biased block at (r, k): the bias row is read at (0, k) whatever the row r. -/
theorem biased_apply (x0 : FVec Ideal S5000x32 .f32) (x1 : FVec Ideal S1x32 .f32) (r : Fin 5000) (k : Fin 32) :
    addf (F := Ideal) (shapeCast S5000x32 x0 shapeCasts_S5000x32_S5000x32)
        (broadcastTo S5000x32 (shapeCast S1x32 x1 shapeCasts_S1x32_S1x32) broadcasts_S1x32_S5000x32) (ix2 r k)
      = x0 (ix2 r k) + x1 (ix2 (0 : Fin 1) k) := by
  show shapeCast S5000x32 x0 shapeCasts_S5000x32_S5000x32 (ix2 r k)
      + broadcastTo S5000x32 (shapeCast S1x32 x1 shapeCasts_S1x32_S1x32) broadcasts_S1x32_S5000x32 (ix2 r k) = _
  rw [shapeCast_self, shapeCast_self, broadcastTo_1b_ab_apply]

/-- Entry (r, q) of what the body stores. -/
theorem pay_apply (x0 : Vec Ideal S5000x32 .f32) (x1 : Vec Ideal S1x32 .f32) (r : Fin 5000) (q : Fin 32) :
    k2_pay1 x0 x1 (ix2 r q)
      = (x0 (ix2 r q) + x1 (ix2 (0 : Fin 1) q) - (Finset.univ : Finset (Fin 32)).fold max negInf (fun k => x0 (ix2 r k) + x1 (ix2 (0 : Fin 1) k)))
        - Ideal.log (∑ k : Fin 32, Ideal.exp (x0 (ix2 r k) + x1 (ix2 (0 : Fin 1) k)
            - (Finset.univ : Finset (Fin 32)).fold max negInf (fun k => x0 (ix2 r k) + x1 (ix2 (0 : Fin 1) k)))) := by
  have e : k2_pay1 x0 x1 = shifted (addf (shapeCast S5000x32 x0 shapeCasts_S5000x32_S5000x32)
      (broadcastTo S5000x32 (shapeCast S1x32 x1 shapeCasts_S1x32_S1x32) broadcasts_S1x32_S5000x32)) := rfl
  rw [e, shifted_apply]
  simp only [biased_apply]

/-! ## The blocks -/

/-- Grid point t is below twenty, so its rows are rows of the array. -/
theorem row_lt (t : Fin cfg2.N) (r : Fin 5000) : 5000 * t.val + r.val < 100000 := by
  have hN : cfg2.N = 20 := N_2
  have := t.isLt; have := r.isLt; omega

/-- The printed index maps over the grid: the z block and the result block of point t are block row t; the bias row is
    taken whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The z block of point t at (r, k) is z at (5000·t + r, k). -/
theorem zblk_at (c : Dev nD) (t : Fin cfg2.N) (r : Fin 5000) (k : Fin 32) :
    (iblk2 V c 0 t : Vec Ideal S5000x32 .f32) (ix2 r k)
      = (V c main_v58 : S100000x32.Idx → Ideal .f32) (ix2 (⟨5000 * t.val + r.val, row_lt t r⟩ : Fin 100000) k) := by
  obtain ⟨e0, e1, -, -, -, -⟩ := idx_facts t
  unfold iblk2
  rw [View.read_apply]
  show V c main_v58 _ = V c main_v58 _
  congr 1
  funext a
  apply Fin.ext
  match a with
  | ⟨0, _⟩ => show win2_0.index t 0 * 5000 + 1 * r.val = 5000 * t.val + r.val; rw [e0]; omega
  | ⟨1, _⟩ => show win2_0.index t 1 * 32 + 1 * k.val = k.val; rw [e1]; omega

/-- The bias row's block at any point is the bias row. -/
theorem bblk_at (c : Dev nD) (t : Fin cfg2.N) (k : Fin 32) :
    (iblk2 V c 1 t : Vec Ideal S1x32 .f32) (ix2 (0 : Fin 1) k) = (V c main_v59 : S1x32.Idx → Ideal .f32) (ix2 (0 : Fin 1) k) := by
  obtain ⟨-, -, e2, e3, -, -⟩ := idx_facts t
  unfold iblk2
  rw [View.read_apply]
  show V c main_v59 _ = V c main_v59 _
  congr 1
  funext a
  apply Fin.ext
  match a with
  | ⟨0, _⟩ => show win2_1.index t 0 * 1 + 1 * 0 = 0; rw [e2]
  | ⟨1, _⟩ => show win2_1.index t 1 * 32 + 1 * k.val = k.val; rw [e3]; omega

/-- The result block of point t sits at rows 5000·t …. -/
theorem oblk_emb (t : Fin cfg2.N) (r : Fin 5000) (q : Fin 32) :
    (((cfg2.win 2).blk t).view.emb (ix2 r q) : S100000x32.Idx) = ix2 (⟨5000 * t.val + r.val, row_lt t r⟩ : Fin 100000) q := by
  obtain ⟨-, -, -, -, e4, e5⟩ := idx_facts t
  funext a
  apply Fin.ext
  match a with
  | ⟨0, _⟩ => show win2_2.index t 0 * 5000 + 1 * r.val = 5000 * t.val + r.val; rw [e4]; omega
  | ⟨1, _⟩ => show win2_2.index t 1 * 32 + 1 * q.val = q.val; rw [e5]; omega

/-- The bias the kernel finds on entry, as a function of the lane. -/
abbrev biasOf (c : Dev nD) : Fin 32 → Ideal .f32 := fun k => (V c main_v59 : S1x32.Idx → Ideal .f32) (ix2 (0 : Fin 1) k)

/-- WHAT POINT t WRITES BACK is block t of the whole log-softmax. -/
theorem flushed_eq (c : Dev nD) (t : Fin cfg2.N) :
    (dat2 V c).flushed 2 t = ((cfg2.win 2).blk t).view.read (Elt Ideal) (logSoftmax (V c main_v58) (biasOf V c)) := by
  show (cfg2.win 2).cut (grid2.coords t) ((dat2 V c).after 2 t) = _
  rw [after2_2]
  unfold out2_2
  rw [View.canon_unit_zero hz]
  simp only [View.ld_unit_zero (S := S5000x32) hz, View.ld_unit_zero (S := S1x32) hz]
  funext j
  obtain ⟨r, q, rfl⟩ : ∃ (r : Fin 5000) (q : Fin 32), j = ix2 r q := ⟨j 0, j 1, eq_ix2 j⟩
  show k2_pay1 (iblk2 V c 0 t) (iblk2 V c 1 t) (ix2 r q)
    = logSoftmax (V c main_v58) (biasOf V c) (((cfg2.win 2).blk t).view.emb (ix2 r q))
  rw [oblk_emb t r q]
  refine (pay_apply (iblk2 V c 0 t) (iblk2 V c 1 t) r q).trans ?_
  simp only [zblk_at V c t, bblk_at V c t]
  rfl

/-- An index of the result is in point t's block iff its row is among rows 5000·t … 5000·t + 4999. -/
theorem mem_blk (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v60).slice (win2_2.rect t)).set ↔ _
  rw [View.set_slice_whole, Rect.mem_set_unit]
  exact Iff.rfl

/-- Every index of the result is in the block of the point its row falls in. -/
theorem cover (i : S100000x32.Idx) : ∃ t : Fin cfg2.N, (cfg2.win 2).flush t = true ∧ i ∈ ((cfg2.win 2).blk t).view.set := by
  have hN : cfg2.N = 20 := N_2
  have h0 : (i 0).val < 100000 := (i 0).isLt
  have h1 : (i 1).val < 32 := (i 1).isLt
  let t : Fin cfg2.N := ⟨(i 0).val / 5000, by rw [hN]; omega⟩
  obtain ⟨-, -, -, -, e4, e5⟩ := idx_facts t
  have ht : t.val = (i 0).val / 5000 := rfl
  refine ⟨t, flush2_2 t, ?_⟩
  rw [mem_blk]
  intro a
  match a with
  | ⟨0, _⟩ => show win2_2.index t 0 * 5000 ≤ (i 0).val ∧ (i 0).val < win2_2.index t 0 * 5000 + 5000; rw [e4, ht]; omega
  | ⟨1, _⟩ => show win2_2.index t 1 * 32 ≤ (i 1).val ∧ (i 1).val < win2_2.index t 1 * 32 + 32; rw [e5]; omega

/-- THE RESULT ARRAY after the last point is the whole log-softmax of what the kernel found on entry. -/
theorem final (c : Dev nD) : (dat2 V c).arrAt 2 cfg2.N = logSoftmax (V c main_v58) (biasOf V c) :=
  (dat2 V c).arrAt_eq_of_cover 2 (logSoftmax (V c main_v58) (biasOf V c)) (fun t _ => flushed_eq V c t) cover

end Cert.KernelIdeal.LogSoftmax

end
-- ==== Proof.KernelRun.lean ====
/-
  The idealized kernel's run with its result named.

  The program is eight segments in a row: three stretches of host operations, the first kernel, a stretch, the second
  kernel, a stretch, the third kernel. The generated frame follows every unscoped buffer through those segments: after the
  last one each holds `W8`, the fold of the segments over the launch memory (a host stretch applies its operations, a
  kernel leaves its result array at what its write-backs leave and every other buffer as it was). The frame as stated
  keeps of this only that the six arguments end as launched; here the same run is stated with the result array too:
  it ends at `W8` at the result's buffer.
-/
import proofs.«160578_j37391985279003_1_alg».proof.Proof.Gen.KernelIdeal.Frame

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents `W8` and the arguments as launched. -/
theorem run_value : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Run

end
-- ==== Proof.KernelHost.lean ====
/-
  The idealized kernel's result as a function of its arguments.

  The run (KernelRun.lean) leaves the result array at the fold `W8` of the program's eight segments over the launch
  memory. Here that fold is read segment by segment. A stretch of host operations, from ANY contents, leaves each of its
  results at the graph-side function (Stages.lean) of the buffers it reads, and leaves every other buffer alone; a
  kernel leaves its result array at its dense stage (Spec.lean) of the arrays it found, by the three block-by-block
  lemmas, and every other buffer alone. Chained from the launch memory: the result is `network` of the six arguments.
-/
import proofs.«160578_j37391985279003_1_alg».proof.Proof.Gen.KernelIdeal.Frame
import proofs.«160578_j37391985279003_1_alg».proof.Proof.Model
import proofs.«160578_j37391985279003_1_alg».proof.Proof.Layer1
import proofs.«160578_j37391985279003_1_alg».proof.Proof.Layer2
import proofs.«160578_j37391985279003_1_alg».proof.Proof.LogSoftmax
import proofs.«160578_j37391985279003_1_alg».proof.Proof.KernelRun
import Idealize.ShloMosaic.Lib.StableHlo.Run
import Idealize.ShloMosaic.Lib.ValueLayout

noncomputable section

namespace Cert.KernelIdeal.Host

open Cert.KernelIdeal Cert.KernelIdeal.Gen Cert.KernelIdeal.Stages Cert.Gcn
open Idealize.ShloMosaic Idealize.ShloMosaic.TcCoe Idealize.SL.Sem Idealize.ShloMosaic.StableHlo Idealize.ShloMosaic.ValueIdx

/-- A buffer's contents after a literal list of host operations: each operation's result at its own buffer, anything
    else as it was. -/
local macro "host_eval" : tactic =>
  `(tactic| (simp only [hostOps0, hostOps0_1, hostOps0_2, hostOps1, hostOps2]; after_results_simp <;> rfl))

/-! ## The host stretches, from any contents -/

section Stretches

variable (W : Valuation τ sig (Elt Ideal))

-- The scatters and gathers stay folded while a stretch is read: the equations below never look inside them.
attribute [local irreducible] Host.gather Host.scatterAdd Host.reduce Host.reduceAdd concatenate

set_option maxHeartbeats 4000000 in
/-- The first stretch leaves the extended source nodes, -/
theorem first_src : StableHlo.after hostOps0 W (Proc.devRef .tc main_v3) = srcIdx (W (Proc.devRef .tc main_arg1)) := by host_eval
set_option maxHeartbeats 4000000 in
/-- the extended target nodes, -/
theorem first_dst : StableHlo.after hostOps0 W (Proc.devRef .tc main_v6) = dstIdx (W (Proc.devRef .tc main_arg1)) := by host_eval
set_option maxHeartbeats 4000000 in
/-- where the degree is positive, -/
theorem first_pos : StableHlo.after hostOps0 W (Proc.devRef .tc main_v12)
    = cmpf (F := Ideal) .ogt (degree (dstIdx (W (Proc.devRef .tc main_arg1)))) (broadcastInDim S100000 ![] bcast_S_S100000 (constant S_ .f32 0x00000000#32)) := by host_eval
set_option maxHeartbeats 4000000 in
/-- the degree's inverse square root, -/
theorem first_rsqrt : StableHlo.after hostOps0 W (Proc.devRef .tc main_v13) = Host.rsqrt (degree (dstIdx (W (Proc.devRef .tc main_arg1)))) := by host_eval
set_option maxHeartbeats 4000000 in
/-- and a zero; -/
theorem first_zero : StableHlo.after hostOps0 W (Proc.devRef .tc main_cst_2) = constant (F := Ideal) S_ .f32 0x00000000#32 := by host_eval
-- it writes no argument.
set_option maxHeartbeats 4000000 in
theorem first_keep_arg0 : StableHlo.after hostOps0 W (Proc.devRef .tc main_arg0) = W (Proc.devRef .tc main_arg0) := by host_eval
set_option maxHeartbeats 4000000 in
theorem first_keep_arg2 : StableHlo.after hostOps0 W (Proc.devRef .tc main_arg2) = W (Proc.devRef .tc main_arg2) := by host_eval
set_option maxHeartbeats 4000000 in
theorem first_keep_arg3 : StableHlo.after hostOps0 W (Proc.devRef .tc main_arg3) = W (Proc.devRef .tc main_arg3) := by host_eval
set_option maxHeartbeats 4000000 in
theorem first_keep_arg4 : StableHlo.after hostOps0 W (Proc.devRef .tc main_arg4) = W (Proc.devRef .tc main_arg4) := by host_eval
set_option maxHeartbeats 4000000 in
theorem first_keep_arg5 : StableHlo.after hostOps0 W (Proc.devRef .tc main_arg5) = W (Proc.devRef .tc main_arg5) := by host_eval

set_option maxHeartbeats 4000000 in
/-- The selection puts the inverse square root where the degree is positive and the zero elsewhere, -/
theorem sel_wt : StableHlo.after hostOps0_1 W (Proc.devRef .tc main_v14)
    = select (W (Proc.devRef .tc main_v12)) (W (Proc.devRef .tc main_v13)) (broadcastInDim S100000 ![] bcast_S_S100000 (W (Proc.devRef .tc main_cst_2))) := by host_eval
-- and leaves the edge lists and the arguments alone.
set_option maxHeartbeats 4000000 in
theorem sel_keep_v3 : StableHlo.after hostOps0_1 W (Proc.devRef .tc main_v3) = W (Proc.devRef .tc main_v3) := by host_eval
set_option maxHeartbeats 4000000 in
theorem sel_keep_v6 : StableHlo.after hostOps0_1 W (Proc.devRef .tc main_v6) = W (Proc.devRef .tc main_v6) := by host_eval
set_option maxHeartbeats 4000000 in
theorem sel_keep_arg0 : StableHlo.after hostOps0_1 W (Proc.devRef .tc main_arg0) = W (Proc.devRef .tc main_arg0) := by host_eval
set_option maxHeartbeats 4000000 in
theorem sel_keep_arg2 : StableHlo.after hostOps0_1 W (Proc.devRef .tc main_arg2) = W (Proc.devRef .tc main_arg2) := by host_eval
set_option maxHeartbeats 4000000 in
theorem sel_keep_arg3 : StableHlo.after hostOps0_1 W (Proc.devRef .tc main_arg3) = W (Proc.devRef .tc main_arg3) := by host_eval
set_option maxHeartbeats 4000000 in
theorem sel_keep_arg4 : StableHlo.after hostOps0_1 W (Proc.devRef .tc main_arg4) = W (Proc.devRef .tc main_arg4) := by host_eval
set_option maxHeartbeats 4000000 in
theorem sel_keep_arg5 : StableHlo.after hostOps0_1 W (Proc.devRef .tc main_arg5) = W (Proc.devRef .tc main_arg5) := by host_eval

set_option maxHeartbeats 4000000 in
/-- The stretch before the first kernel turns the nodes' weights into the edges' coefficients, -/
theorem coef_nrm : StableHlo.after hostOps0_2 W (Proc.devRef .tc main_v29)
    = edgeNormOf (W (Proc.devRef .tc main_v14)) (W (Proc.devRef .tc main_v3)) (W (Proc.devRef .tc main_v6)) := by host_eval
-- and leaves the edge lists and the arguments alone.
set_option maxHeartbeats 4000000 in
theorem coef_keep_v3 : StableHlo.after hostOps0_2 W (Proc.devRef .tc main_v3) = W (Proc.devRef .tc main_v3) := by host_eval
set_option maxHeartbeats 4000000 in
theorem coef_keep_v6 : StableHlo.after hostOps0_2 W (Proc.devRef .tc main_v6) = W (Proc.devRef .tc main_v6) := by host_eval
set_option maxHeartbeats 4000000 in
theorem coef_keep_arg0 : StableHlo.after hostOps0_2 W (Proc.devRef .tc main_arg0) = W (Proc.devRef .tc main_arg0) := by host_eval
set_option maxHeartbeats 4000000 in
theorem coef_keep_arg2 : StableHlo.after hostOps0_2 W (Proc.devRef .tc main_arg2) = W (Proc.devRef .tc main_arg2) := by host_eval
set_option maxHeartbeats 4000000 in
theorem coef_keep_arg3 : StableHlo.after hostOps0_2 W (Proc.devRef .tc main_arg3) = W (Proc.devRef .tc main_arg3) := by host_eval
set_option maxHeartbeats 4000000 in
theorem coef_keep_arg4 : StableHlo.after hostOps0_2 W (Proc.devRef .tc main_arg4) = W (Proc.devRef .tc main_arg4) := by host_eval
set_option maxHeartbeats 4000000 in
theorem coef_keep_arg5 : StableHlo.after hostOps0_2 W (Proc.devRef .tc main_arg5) = W (Proc.devRef .tc main_arg5) := by host_eval

set_option maxHeartbeats 4000000 in
/-- The stretch between the first two kernels propagates the first kernel's result along the edges -/
theorem mid1_agg : StableHlo.after hostOps1 W (Proc.devRef .tc main_v43)
    = aggregate16 (W (Proc.devRef .tc main_v30)) (W (Proc.devRef .tc main_v3)) (W (Proc.devRef .tc main_v6)) (W (Proc.devRef .tc main_v29)) := by host_eval
/-- and lays the first bias down as one row; -/
theorem mid1_bias : StableHlo.after hostOps1 W (Proc.devRef .tc main_v44) = shapeCast S1x16 (W (Proc.devRef .tc main_arg3)) shapeCasts_S16_S1x16 := by host_eval
-- it leaves the graph side and the later arguments alone.
set_option maxHeartbeats 4000000 in
theorem mid1_keep_v3 : StableHlo.after hostOps1 W (Proc.devRef .tc main_v3) = W (Proc.devRef .tc main_v3) := by host_eval
set_option maxHeartbeats 4000000 in
theorem mid1_keep_v6 : StableHlo.after hostOps1 W (Proc.devRef .tc main_v6) = W (Proc.devRef .tc main_v6) := by host_eval
set_option maxHeartbeats 4000000 in
theorem mid1_keep_v29 : StableHlo.after hostOps1 W (Proc.devRef .tc main_v29) = W (Proc.devRef .tc main_v29) := by host_eval
set_option maxHeartbeats 4000000 in
theorem mid1_keep_arg4 : StableHlo.after hostOps1 W (Proc.devRef .tc main_arg4) = W (Proc.devRef .tc main_arg4) := by host_eval
set_option maxHeartbeats 4000000 in
theorem mid1_keep_arg5 : StableHlo.after hostOps1 W (Proc.devRef .tc main_arg5) = W (Proc.devRef .tc main_arg5) := by host_eval

set_option maxHeartbeats 4000000 in
/-- The stretch between the last two kernels propagates the second kernel's result along the edges -/
theorem mid2_agg : StableHlo.after hostOps2 W (Proc.devRef .tc main_v58)
    = aggregate32 (W (Proc.devRef .tc main_v45)) (W (Proc.devRef .tc main_v3)) (W (Proc.devRef .tc main_v6)) (W (Proc.devRef .tc main_v29)) := by host_eval
/-- and lays the second bias down as one row. -/
theorem mid2_bias : StableHlo.after hostOps2 W (Proc.devRef .tc main_v59) = shapeCast S1x32 (W (Proc.devRef .tc main_arg5)) shapeCasts_S32_S1x32 := by host_eval

end Stretches

/-! ## The fold, boundary by boundary -/

variable (m : (ℓ : Loc nD τ sig) → Buf (Elt Ideal) ℓ) (ρ : Dev nD → PrngReg) (c : Dev nD)

/-- The arguments as launched, named. -/
abbrev X := m ((c : Thread nD τ).loc main_arg0)
abbrev E := m ((c : Thread nD τ).loc main_arg1)
abbrev W1' := m ((c : Thread nD τ).loc main_arg2)
abbrev B1 := m ((c : Thread nD τ).loc main_arg3)
abbrev W2' := m ((c : Thread nD τ).loc main_arg4)
abbrev B2 := m ((c : Thread nD τ).loc main_arg5)

/-! ### After the first stretch -/
theorem at1_src : W1 m ρ c (Proc.devRef .tc main_v3) = srcIdx (E m c) := first_src (W0 m ρ c)
theorem at1_dst : W1 m ρ c (Proc.devRef .tc main_v6) = dstIdx (E m c) := first_dst (W0 m ρ c)
theorem at1_pos : W1 m ρ c (Proc.devRef .tc main_v12)
    = cmpf (F := Ideal) .ogt (degree (dstIdx (E m c))) (broadcastInDim S100000 ![] bcast_S_S100000 (constant S_ .f32 0x00000000#32)) := first_pos (W0 m ρ c)
theorem at1_rsqrt : W1 m ρ c (Proc.devRef .tc main_v13) = Host.rsqrt (degree (dstIdx (E m c))) := first_rsqrt (W0 m ρ c)
theorem at1_zero : W1 m ρ c (Proc.devRef .tc main_cst_2) = constant (F := Ideal) S_ .f32 0x00000000#32 := first_zero (W0 m ρ c)
theorem at1_x : W1 m ρ c (Proc.devRef .tc main_arg0) = X m c := first_keep_arg0 (W0 m ρ c)
theorem at1_w1 : W1 m ρ c (Proc.devRef .tc main_arg2) = W1' m c := first_keep_arg2 (W0 m ρ c)
theorem at1_b1 : W1 m ρ c (Proc.devRef .tc main_arg3) = B1 m c := first_keep_arg3 (W0 m ρ c)
theorem at1_w2 : W1 m ρ c (Proc.devRef .tc main_arg4) = W2' m c := first_keep_arg4 (W0 m ρ c)
theorem at1_b2 : W1 m ρ c (Proc.devRef .tc main_arg5) = B2 m c := first_keep_arg5 (W0 m ρ c)

/-! ### After the selection -/
theorem at2_wt : W2 m ρ c (Proc.devRef .tc main_v14) = invSqrtDeg (dstIdx (E m c)) :=
  (sel_wt (W1 m ρ c)).trans (by rw [at1_pos m ρ c, at1_rsqrt m ρ c, at1_zero m ρ c]; rfl)
theorem at2_src : W2 m ρ c (Proc.devRef .tc main_v3) = srcIdx (E m c) := (sel_keep_v3 (W1 m ρ c)).trans (at1_src m ρ c)
theorem at2_dst : W2 m ρ c (Proc.devRef .tc main_v6) = dstIdx (E m c) := (sel_keep_v6 (W1 m ρ c)).trans (at1_dst m ρ c)
theorem at2_x : W2 m ρ c (Proc.devRef .tc main_arg0) = X m c := (sel_keep_arg0 (W1 m ρ c)).trans (at1_x m ρ c)
theorem at2_w1 : W2 m ρ c (Proc.devRef .tc main_arg2) = W1' m c := (sel_keep_arg2 (W1 m ρ c)).trans (at1_w1 m ρ c)
theorem at2_b1 : W2 m ρ c (Proc.devRef .tc main_arg3) = B1 m c := (sel_keep_arg3 (W1 m ρ c)).trans (at1_b1 m ρ c)
theorem at2_w2 : W2 m ρ c (Proc.devRef .tc main_arg4) = W2' m c := (sel_keep_arg4 (W1 m ρ c)).trans (at1_w2 m ρ c)
theorem at2_b2 : W2 m ρ c (Proc.devRef .tc main_arg5) = B2 m c := (sel_keep_arg5 (W1 m ρ c)).trans (at1_b2 m ρ c)

/-! ### At the first kernel's entry -/
theorem at3_nrm : W3 m ρ c (Proc.devRef .tc main_v29) = edgeNorm (srcIdx (E m c)) (dstIdx (E m c)) :=
  (coef_nrm (W2 m ρ c)).trans (by rw [at2_wt m ρ c, at2_src m ρ c, at2_dst m ρ c]; rfl)
theorem at3_src : W3 m ρ c (Proc.devRef .tc main_v3) = srcIdx (E m c) := (coef_keep_v3 (W2 m ρ c)).trans (at2_src m ρ c)
theorem at3_dst : W3 m ρ c (Proc.devRef .tc main_v6) = dstIdx (E m c) := (coef_keep_v6 (W2 m ρ c)).trans (at2_dst m ρ c)
theorem at3_x : W3 m ρ c (Proc.devRef .tc main_arg0) = X m c := (coef_keep_arg0 (W2 m ρ c)).trans (at2_x m ρ c)
theorem at3_w1 : W3 m ρ c (Proc.devRef .tc main_arg2) = W1' m c := (coef_keep_arg2 (W2 m ρ c)).trans (at2_w1 m ρ c)
theorem at3_b1 : W3 m ρ c (Proc.devRef .tc main_arg3) = B1 m c := (coef_keep_arg3 (W2 m ρ c)).trans (at2_b1 m ρ c)
theorem at3_w2 : W3 m ρ c (Proc.devRef .tc main_arg4) = W2' m c := (coef_keep_arg4 (W2 m ρ c)).trans (at2_w2 m ρ c)
theorem at3_b2 : W3 m ρ c (Proc.devRef .tc main_arg5) = B2 m c := (coef_keep_arg5 (W2 m ρ c)).trans (at2_b2 m ρ c)

/-! ### At the first kernel's exit -/
theorem at4_h : W4 m ρ c (Proc.devRef .tc main_v30) = proj1 (X m c) (W1' m c) :=
  (W4_arr m ρ c 2).trans ((Layer1.final (V3 m ρ) c).trans (congrArg₂ proj1 (at3_x m ρ c) (at3_w1 m ρ c)))
theorem at4_src : W4 m ρ c (Proc.devRef .tc main_v3) = srcIdx (E m c) := (W4_of_ne m ρ c main_v3 (by decide)).trans (at3_src m ρ c)
theorem at4_dst : W4 m ρ c (Proc.devRef .tc main_v6) = dstIdx (E m c) := (W4_of_ne m ρ c main_v6 (by decide)).trans (at3_dst m ρ c)
theorem at4_nrm : W4 m ρ c (Proc.devRef .tc main_v29) = edgeNorm (srcIdx (E m c)) (dstIdx (E m c)) := (W4_of_ne m ρ c main_v29 (by decide)).trans (at3_nrm m ρ c)
theorem at4_b1 : W4 m ρ c (Proc.devRef .tc main_arg3) = B1 m c := (W4_of_ne m ρ c main_arg3 (by decide)).trans (at3_b1 m ρ c)
theorem at4_w2 : W4 m ρ c (Proc.devRef .tc main_arg4) = W2' m c := (W4_of_ne m ρ c main_arg4 (by decide)).trans (at3_w2 m ρ c)
theorem at4_b2 : W4 m ρ c (Proc.devRef .tc main_arg5) = B2 m c := (W4_of_ne m ρ c main_arg5 (by decide)).trans (at3_b2 m ρ c)

/-- The first layer after propagation. -/
abbrev agg1 := aggregate16 (proj1 (X m c) (W1' m c)) (srcIdx (E m c)) (dstIdx (E m c)) (edgeNorm (srcIdx (E m c)) (dstIdx (E m c)))

/-! ### At the second kernel's entry -/
theorem at5_agg : W5 m ρ c (Proc.devRef .tc main_v43) = agg1 m c :=
  (mid1_agg (W4 m ρ c)).trans (by rw [at4_h m ρ c, at4_src m ρ c, at4_dst m ρ c, at4_nrm m ρ c])
theorem at5_bias : W5 m ρ c (Proc.devRef .tc main_v44) = shapeCast S1x16 (B1 m c) shapeCasts_S16_S1x16 :=
  (mid1_bias (W4 m ρ c)).trans (by rw [at4_b1 m ρ c])
theorem at5_w2 : W5 m ρ c (Proc.devRef .tc main_arg4) = W2' m c := (mid1_keep_arg4 (W4 m ρ c)).trans (at4_w2 m ρ c)
theorem at5_src : W5 m ρ c (Proc.devRef .tc main_v3) = srcIdx (E m c) := (mid1_keep_v3 (W4 m ρ c)).trans (at4_src m ρ c)
theorem at5_dst : W5 m ρ c (Proc.devRef .tc main_v6) = dstIdx (E m c) := (mid1_keep_v6 (W4 m ρ c)).trans (at4_dst m ρ c)
theorem at5_nrm : W5 m ρ c (Proc.devRef .tc main_v29) = edgeNorm (srcIdx (E m c)) (dstIdx (E m c)) := (mid1_keep_v29 (W4 m ρ c)).trans (at4_nrm m ρ c)
theorem at5_b2 : W5 m ρ c (Proc.devRef .tc main_arg5) = B2 m c := (mid1_keep_arg5 (W4 m ρ c)).trans (at4_b2 m ρ c)

/-- The bias row the second kernel finds is the first bias, lane by lane. -/
theorem bias1_eq : Layer2.biasOf (V5 m ρ) c = fun k => (B1 m c : S16.Idx → Ideal .f32) (ix1 k) := by
  funext k
  show (W5 m ρ c (Proc.devRef .tc main_v44) : S1x16.Idx → Ideal .f32) (ix2 (0 : Fin 1) k) = _
  rw [at5_bias m ρ c]
  exact shapeCast_a_1a_apply _ _ (0 : Fin 1) k

/-- The second layer before propagation. -/
abbrev hid2 := proj2 (agg1 m c) (fun k => (B1 m c : S16.Idx → Ideal .f32) (ix1 k)) (W2' m c)

/-! ### At the second kernel's exit -/
theorem at6_h : W6 m ρ c (Proc.devRef .tc main_v45) = hid2 m c :=
  (W6_arr m ρ c 3).trans ((Layer2.final (V5 m ρ) c).trans (by
    show proj2 (W5 m ρ c (Proc.devRef .tc main_v43)) (Layer2.biasOf (V5 m ρ) c) (W5 m ρ c (Proc.devRef .tc main_arg4)) = _
    rw [at5_agg m ρ c, bias1_eq m ρ c, at5_w2 m ρ c]))
theorem at6_src : W6 m ρ c (Proc.devRef .tc main_v3) = srcIdx (E m c) := (W6_of_ne m ρ c main_v3 (by decide)).trans (at5_src m ρ c)
theorem at6_dst : W6 m ρ c (Proc.devRef .tc main_v6) = dstIdx (E m c) := (W6_of_ne m ρ c main_v6 (by decide)).trans (at5_dst m ρ c)
theorem at6_nrm : W6 m ρ c (Proc.devRef .tc main_v29) = edgeNorm (srcIdx (E m c)) (dstIdx (E m c)) := (W6_of_ne m ρ c main_v29 (by decide)).trans (at5_nrm m ρ c)
theorem at6_b2 : W6 m ρ c (Proc.devRef .tc main_arg5) = B2 m c := (W6_of_ne m ρ c main_arg5 (by decide)).trans (at5_b2 m ρ c)

/-- The second layer after propagation. -/
abbrev agg2 := aggregate32 (hid2 m c) (srcIdx (E m c)) (dstIdx (E m c)) (edgeNorm (srcIdx (E m c)) (dstIdx (E m c)))

/-! ### At the third kernel's entry -/
theorem at7_agg : W7 m ρ c (Proc.devRef .tc main_v58) = agg2 m c :=
  (mid2_agg (W6 m ρ c)).trans (by rw [at6_h m ρ c, at6_src m ρ c, at6_dst m ρ c, at6_nrm m ρ c])
theorem at7_bias : W7 m ρ c (Proc.devRef .tc main_v59) = shapeCast S1x32 (B2 m c) shapeCasts_S32_S1x32 :=
  (mid2_bias (W6 m ρ c)).trans (by rw [at6_b2 m ρ c])

/-- The bias row the third kernel finds is the second bias, lane by lane. -/
theorem bias2_eq : LogSoftmax.biasOf (V7 m ρ) c = fun k => (B2 m c : S32.Idx → Ideal .f32) (ix1 k) := by
  funext k
  show (W7 m ρ c (Proc.devRef .tc main_v59) : S1x32.Idx → Ideal .f32) (ix2 (0 : Fin 1) k) = _
  rw [at7_bias m ρ c]
  exact shapeCast_a_1a_apply _ _ (0 : Fin 1) k

/-! ### At the return -/

/-- THE RESULT ARRAY at the last boundary is the network's output of the six arguments. -/
theorem result_eq : W8 m ρ c (Proc.devRef .tc main_v60) = network (X m c) (E m c) (W1' m c) (B1 m c) (W2' m c) (B2 m c) :=
  (W8_arr m ρ c 2).trans ((LogSoftmax.final (V7 m ρ) c).trans (by
    show logSoftmax (W7 m ρ c (Proc.devRef .tc main_v58)) (LogSoftmax.biasOf (V7 m ρ) c) = _
    rw [at7_agg m ρ c, bias2_eq m ρ c]
    rfl))

/-- THE RUN, READ: every weakly fair execution of the idealized kernel ends with the result array at the network's
    output of the launched arguments, and the arguments as launched. -/
theorem run : θ_run defs (onTc (τ := τ) (main (F := Ideal))) ⟨m, fun _ => 0, ρ⟩ (fun r => ∀ c : Dev nD,
      r.2.mem ((c.tc : Thread nD τ).loc main_v60) = network (X m c) (E m c) (W1' m c) (B1 m c) (W2' m c) (B2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Cert.KernelIdeal.Run.run_value m ρ)

end Cert.KernelIdeal.Host

end
-- ==== Proof.LibBcastRowCol.lean ====
/-
  Rows and columns repeated by `broadcast_in_dim`, read at an entry.

  The host lays a vector down as one row (`dims = [1]`) or stands it up as one column (`dims = [0]`) and then repeats the
  row down the rows or the column along the lanes (`dims = [0, 1]`). Read at (p, q):
  * `vecRow_apply`     an [n] vector as a [1, n] row reads, at (0, k), the vector at k;
  * `vecRows_apply`    that row repeated to [m, n] reads, at (p, k), the vector at k;
  * `vecCol_apply`     an [m] vector as an [m, 1] column reads, at (p, 0), the vector at p;
  * `colSpread_apply`  an [m, 1] column repeated to [m, n] reads, at (p, q), the column at (p, 0).
  Companions of the library's `broadcastInDim_oneRow_apply` (a [1, n] row repeated to [m, n]).
-/
import Idealize.ShloMosaic.Lib.Pipeline.Value
import Idealize.ShloMosaic.Lib.ValueIdx
import Idealize.ShloMosaic.Lib.KernelVsHost

namespace Cert.LibBcastRowCol

open Idealize.ShloMosaic Idealize.ShloMosaic.ValueIdx

variable {α : Type}

/-- A vector laid down as one row reads, at (0, k), the vector at k. -/
theorem vecRow_apply {n : ℕ} (h : (⟨1, ![n]⟩ : Shape).BroadcastsInDim ⟨2, ![1, n]⟩ ![1])
    (b : (⟨1, ![n]⟩ : Shape).Idx → α) (k : Fin n) : broadcastInDim ⟨2, ![1, n]⟩ ![1] h b (ix2 (0 : Fin 1) k) = b (ix1 k) := by
  refine broadcastInDim_apply ![1] h b (ix2 (0 : Fin 1) k) (ix1 k) ?_
  intro a
  fin_cases a
  show k.val = if n = 1 then 0 else k.val
  split_ifs with hn
  · have := k.isLt; omega
  · rfl

/-- A vector repeated down the rows reads, at (p, k), the vector at k. -/
theorem vecRows_apply {m n : ℕ} (h : (⟨1, ![n]⟩ : Shape).BroadcastsInDim ⟨2, ![1, n]⟩ ![1])
    (h' : (⟨2, ![1, n]⟩ : Shape).BroadcastsInDim ⟨2, ![m, n]⟩ ![0, 1]) (b : (⟨1, ![n]⟩ : Shape).Idx → α) (p : Fin m) (k : Fin n) :
    broadcastInDim ⟨2, ![m, n]⟩ ![0, 1] h' (broadcastInDim ⟨2, ![1, n]⟩ ![1] h b) (ix2 p k) = b (ix1 k) := by
  rw [broadcastInDim_oneRow_apply, vecRow_apply]

/-- A per-row value stood up as a column reads, at (p, 0), the value of row p. -/
theorem vecCol_apply {m : ℕ} (h : (⟨1, ![m]⟩ : Shape).BroadcastsInDim ⟨2, ![m, 1]⟩ ![0])
    (u : (⟨1, ![m]⟩ : Shape).Idx → α) (p : Fin m) : broadcastInDim ⟨2, ![m, 1]⟩ ![0] h u (ix2 p (0 : Fin 1)) = u (ix1 p) := by
  refine broadcastInDim_apply ![0] h u (ix2 p (0 : Fin 1)) (ix1 p) ?_
  intro a
  fin_cases a
  show p.val = if m = 1 then 0 else p.val
  split_ifs with hm
  · have := p.isLt; omega
  · rfl

/-- A column repeated along the rows reads, at (p, q), the column at row p. -/
theorem colSpread_apply {m n : ℕ} (h : (⟨2, ![m, 1]⟩ : Shape).BroadcastsInDim ⟨2, ![m, n]⟩ ![0, 1])
    (v : (⟨2, ![m, 1]⟩ : Shape).Idx → α) (p : Fin m) (q : Fin n) :
    broadcastInDim ⟨2, ![m, n]⟩ ![0, 1] h v (ix2 p q) = v (ix2 p (0 : Fin 1)) := by
  refine broadcastInDim_apply ![0, 1] h v (ix2 p q) (ix2 p (0 : Fin 1)) ?_
  intro a
  fin_cases a
  · show p.val = if m = 1 then 0 else p.val
    split_ifs with hm
    · have := p.isLt; omega
    · rfl
  · show (0 : ℕ) = if (1 : ℕ) = 1 then 0 else _
    simp

end Cert.LibBcastRowCol
-- ==== Proof.RefDense.lean ====
/-
  The reference's three dense stages are the specification's.

  The reference computes its dense stages on whole arrays with host operations: a `dot_general` for each projection, the
  bias as a vector laid down as one row and repeated down the rows, the rectifier as a maximum with a repeated 0, and
  the log-softmax through two row reductions (a maximum from −∞, then a sum) whose results are stood up as columns and
  repeated along the rows. Read at an entry (p, q), each is the formula of Spec.lean:
  a `dot_general` with one contracted axis is the sum over k of the products; a repeated row reads the vector at the
  lane; a repeated column reads the per-row value at the row; the maximum of −∞ and a row's maximum is that maximum;
  a sum started from 0 is the sum.
-/
import proofs.«160578_j37391985279003_1_alg».proof.Proof.Gen.ReferenceIdeal
import proofs.«160578_j37391985279003_1_alg».proof.Proof.Spec
import proofs.«160578_j37391985279003_1_alg».proof.Proof.LibMatmulAt
import proofs.«160578_j37391985279003_1_alg».proof.Proof.LibBcastRowCol
import Idealize.ShloMosaic.Lib.Pipeline.Value
import Idealize.ShloMosaic.Lib.ValueIdx
import Idealize.ShloMosaic.Lib.IdealHost
import Idealize.ShloMosaic.Lib.KernelVsHost
import Idealize.ShloMosaic.PureOps.Ideal.Laws

noncomputable section

open scoped BigOperators

namespace Cert.ReferenceIdeal.Dense

open Cert.ReferenceIdeal Cert.ReferenceIdeal.Gen Cert.Gcn
open Idealize.ShloMosaic Idealize.SL.Sem Idealize.ShloMosaic.ValueIdx Cert.LibBcastRowCol

/-! ## The reference's dense stages, as it spells them -/

/-- The first projection. -/
def refProj1 (x : FVec Ideal S100000x128 .f32) (w : FVec Ideal S128x16 .f32) : FVec Ideal S100000x16 .f32 :=
  Host.dotGeneral dot_S100000x128_S128x16_S100000x16_1_0_0_1_n_n none x w

/-- Bias, rectifier and the second projection. -/
def refProj2 (a : FVec Ideal S100000x16 .f32) (b : FVec Ideal S16 .f32) (w : FVec Ideal S16x32 .f32) : FVec Ideal S100000x32 .f32 :=
  Host.dotGeneral dot_S100000x16_S16x32_S100000x32_1_0_0_1_n_n none
    (maximumf (F := Ideal)
      (addf (F := Ideal) a (broadcastInDim S100000x16 ![0, 1] bcast_S1x16_S100000x16_0_1 (broadcastInDim S1x16 ![1] bcast_S16_S1x16_1 b)))
      (broadcastInDim S100000x16 ![] bcast_S_S100000x16 (constant (F := Ideal) S_ .f32 0x00000000#32))) w

/-- The second layer with its bias. -/
def refBiased (z : FVec Ideal S100000x32 .f32) (b : FVec Ideal S32 .f32) : FVec Ideal S100000x32 .f32 :=
  addf (F := Ideal) z (broadcastInDim S100000x32 ![0, 1] bcast_S1x32_S100000x32_0_1 (broadcastInDim S1x32 ![1] bcast_S32_S1x32_1 b))

/-- Each row's maximum. -/
def refRowMax (y : FVec Ideal S100000x32 .f32) : FVec Ideal S100000 .f32 :=
  maximumf (F := Ideal) (broadcastInDim S100000 ![] bcast_S_S100000 (constant (F := Ideal) S_ .f32 0xFF800000#32))
    (Host.reduce FloatOps.maximumf y (constant (F := Ideal) S_ .f32 0xFF800000#32) reducesTo_S100000x32_S100000_d1 h_S_)

/-- Each row shifted by its maximum. -/
def refShifted (y : FVec Ideal S100000x32 .f32) : FVec Ideal S100000x32 .f32 :=
  subf (F := Ideal) y (broadcastInDim S100000x32 ![0, 1] bcast_S100000x1_S100000x32_0_1 (broadcastInDim S100000x1 ![0] bcast_S100000_S100000x1_0 (refRowMax y)))

/-- The log-softmax of the biased second layer. -/
def refLogSoftmax (z : FVec Ideal S100000x32 .f32) (b : FVec Ideal S32 .f32) : FVec Ideal S100000x32 .f32 :=
  subf (F := Ideal) (refShifted (refBiased z b))
    (broadcastInDim S100000x32 ![0, 1] bcast_S100000x1_S100000x32_0_1
      (Host.log (broadcastInDim S100000x1 ![0] bcast_S100000_S100000x1_0
        (Host.reduceAdd (Host.exp (refShifted (refBiased z b))) (constant (F := Ideal) S_ .f32 0x00000000#32) reducesTo_S100000x32_S100000_d1 h_S_))))

-- The two row reductions stay folded below: no equation here looks inside them (they are folds over the whole array).
attribute [local irreducible] Host.reduce Host.reduceAdd

/-- The host's exponential and logarithm, read at an entry. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-! ## Where the two products' operand indices sit -/

theorem l1_row (i : S100000x16.Idx) (q : dot_S100000x128_S128x16_S100000x16_1_0_0_1_n_n.contr.Idx) :
    (dot_S100000x128_S128x16_S100000x16_1_0_0_1_n_n.lhsIdx i q 0).val = (i 0).val := by
  unfold DotDims.lhsIdx
  rw [dif_neg (show ¬(0 : Fin S100000x128.rank) ∈ dot_S100000x128_S128x16_S100000x16_1_0_0_1_n_n.lhsBatch by decide), dif_pos (show (0 : Fin S100000x128.rank) ∈ dot_S100000x128_S128x16_S100000x16_1_0_0_1_n_n.lhsNonContracting by decide)]
  rfl
theorem l1_contr (i : S100000x16.Idx) (q : dot_S100000x128_S128x16_S100000x16_1_0_0_1_n_n.contr.Idx) :
    (dot_S100000x128_S128x16_S100000x16_1_0_0_1_n_n.lhsIdx i q 1).val = (q ⟨0, by decide⟩).val :=
  dot_S100000x128_S128x16_S100000x16_1_0_0_1_n_n.lhsIdx_val_of_single rfl i q
theorem r1_contr (i : S100000x16.Idx) (q : dot_S100000x128_S128x16_S100000x16_1_0_0_1_n_n.contr.Idx) :
    (dot_S100000x128_S128x16_S100000x16_1_0_0_1_n_n.rhsIdx i q 0).val = (q ⟨0, by decide⟩).val :=
  dot_S100000x128_S128x16_S100000x16_1_0_0_1_n_n.rhsIdx_val_of_single rfl i q
theorem r1_col (i : S100000x16.Idx) (q : dot_S100000x128_S128x16_S100000x16_1_0_0_1_n_n.contr.Idx) :
    (dot_S100000x128_S128x16_S100000x16_1_0_0_1_n_n.rhsIdx i q 1).val = (i 1).val := by
  unfold DotDims.rhsIdx
  rw [dif_neg (show ¬(1 : Fin S128x16.rank) ∈ dot_S100000x128_S128x16_S100000x16_1_0_0_1_n_n.rhsBatch by decide), dif_pos (show (1 : Fin S128x16.rank) ∈ dot_S100000x128_S128x16_S100000x16_1_0_0_1_n_n.rhsNonContracting by decide)]
  rfl

theorem l2_row (i : S100000x32.Idx) (q : dot_S100000x16_S16x32_S100000x32_1_0_0_1_n_n.contr.Idx) :
    (dot_S100000x16_S16x32_S100000x32_1_0_0_1_n_n.lhsIdx i q 0).val = (i 0).val := by
  unfold DotDims.lhsIdx
  rw [dif_neg (show ¬(0 : Fin S100000x16.rank) ∈ dot_S100000x16_S16x32_S100000x32_1_0_0_1_n_n.lhsBatch by decide), dif_pos (show (0 : Fin S100000x16.rank) ∈ dot_S100000x16_S16x32_S100000x32_1_0_0_1_n_n.lhsNonContracting by decide)]
  rfl
theorem l2_contr (i : S100000x32.Idx) (q : dot_S100000x16_S16x32_S100000x32_1_0_0_1_n_n.contr.Idx) :
    (dot_S100000x16_S16x32_S100000x32_1_0_0_1_n_n.lhsIdx i q 1).val = (q ⟨0, by decide⟩).val :=
  dot_S100000x16_S16x32_S100000x32_1_0_0_1_n_n.lhsIdx_val_of_single rfl i q
theorem r2_contr (i : S100000x32.Idx) (q : dot_S100000x16_S16x32_S100000x32_1_0_0_1_n_n.contr.Idx) :
    (dot_S100000x16_S16x32_S100000x32_1_0_0_1_n_n.rhsIdx i q 0).val = (q ⟨0, by decide⟩).val :=
  dot_S100000x16_S16x32_S100000x32_1_0_0_1_n_n.rhsIdx_val_of_single rfl i q
theorem r2_col (i : S100000x32.Idx) (q : dot_S100000x16_S16x32_S100000x32_1_0_0_1_n_n.contr.Idx) :
    (dot_S100000x16_S16x32_S100000x32_1_0_0_1_n_n.rhsIdx i q 1).val = (i 1).val := by
  unfold DotDims.rhsIdx
  rw [dif_neg (show ¬(1 : Fin S16x32.rank) ∈ dot_S100000x16_S16x32_S100000x32_1_0_0_1_n_n.rhsBatch by decide), dif_pos (show (1 : Fin S16x32.rank) ∈ dot_S100000x16_S16x32_S100000x32_1_0_0_1_n_n.rhsNonContracting by decide)]
  rfl

/-! ## The stages at an entry -/

/-- The first projection is the specification's. -/
theorem proj1_eq (x : FVec Ideal S100000x128 .f32) (w : FVec Ideal S128x16 .f32) : refProj1 x w = proj1 x w := by
  funext i
  obtain ⟨p, q, rfl⟩ : ∃ (p : Fin 100000) (q : Fin 16), i = ix2 p q := ⟨i 0, i 1, eq_ix2 i⟩
  exact MatmulAt.dotGeneral_ix2 dot_S100000x128_S128x16_S100000x16_1_0_0_1_n_n rfl rfl l1_row l1_contr r1_contr r1_col none x w p q

/-- The rectified, biased first layer at (p, k). -/
theorem relu_apply (a : FVec Ideal S100000x16 .f32) (b : FVec Ideal S16 .f32) (p : Fin 100000) (k : Fin 16) :
    maximumf (F := Ideal)
      (addf (F := Ideal) a (broadcastInDim S100000x16 ![0, 1] bcast_S1x16_S100000x16_0_1 (broadcastInDim S1x16 ![1] bcast_S16_S1x16_1 b)))
      (broadcastInDim S100000x16 ![] bcast_S_S100000x16 (constant (F := Ideal) S_ .f32 0x00000000#32)) (ix2 p k)
      = max (a (ix2 p k) + b (ix1 k)) zeroW := by
  show max (a (ix2 p k) + broadcastInDim S100000x16 ![0, 1] bcast_S1x16_S100000x16_0_1 (broadcastInDim S1x16 ![1] bcast_S16_S1x16_1 b) (ix2 p k))
      (broadcastInDim S100000x16 ![] bcast_S_S100000x16 (constant (F := Ideal) S_ .f32 0x00000000#32) (ix2 p k)) = _
  rw [vecRows_apply, broadcastInDim_scalar_apply]
  rfl

/-- The second product at an entry, whatever its left operand. -/
theorem dot2_apply (l : FVec Ideal S100000x16 .f32) (w : FVec Ideal S16x32 .f32) (p : Fin 100000) (q : Fin 32) :
    Host.dotGeneral dot_S100000x16_S16x32_S100000x32_1_0_0_1_n_n none l w (ix2 p q) = ∑ k : Fin 16, l (ix2 p k) * w (ix2 k q) :=
  MatmulAt.dotGeneral_ix2 dot_S100000x16_S16x32_S100000x32_1_0_0_1_n_n rfl rfl l2_row l2_contr r2_contr r2_col none l w p q

/-- The sum of the rectified, biased row against a column of w is the specification's entry. -/
theorem relu_sum (a : FVec Ideal S100000x16 .f32) (b : FVec Ideal S16 .f32) (w : FVec Ideal S16x32 .f32) (p : Fin 100000) (q : Fin 32) :
    (∑ k : Fin 16, (maximumf (F := Ideal)
      (addf (F := Ideal) a (broadcastInDim S100000x16 ![0, 1] bcast_S1x16_S100000x16_0_1 (broadcastInDim S1x16 ![1] bcast_S16_S1x16_1 b)))
      (broadcastInDim S100000x16 ![] bcast_S_S100000x16 (constant (F := Ideal) S_ .f32 0x00000000#32))) (ix2 p k) * w (ix2 k q))
      = proj2 a (fun k => b (ix1 k)) w (ix2 p q) := by
  unfold proj2
  refine Finset.sum_congr rfl fun k _ => ?_
  exact congrArg (· * w (ix2 k q)) (relu_apply a b p k)

/-- The second projection is the specification's. -/
theorem proj2_eq (a : FVec Ideal S100000x16 .f32) (b : FVec Ideal S16 .f32) (w : FVec Ideal S16x32 .f32) :
    refProj2 a b w = proj2 a (fun k => b (ix1 k)) w := by
  funext i
  obtain ⟨p, q, rfl⟩ : ∃ (p : Fin 100000) (q : Fin 32), i = ix2 p q := ⟨i 0, i 1, eq_ix2 i⟩
  exact (dot2_apply _ w p q).trans (relu_sum a b w p q)

/-- The biased second layer at (p, k). -/
theorem biased_apply (z : FVec Ideal S100000x32 .f32) (b : FVec Ideal S32 .f32) (p : Fin 100000) (k : Fin 32) :
    refBiased z b (ix2 p k) = z (ix2 p k) + b (ix1 k) := by
  unfold refBiased
  rw [addf_apply, vecRows_apply]

theorem reduces_rows : S100000x32.Reduces [1] S100000 := by decide

/-- The reduced index p with the lane k put back is (p, k). -/
theorem lift_row (p : Fin 100000) (k : Fin (S100000x32.size 1)) :
    reduces_rows.lift (ix1 p) k = ix2 p (⟨k.val, k.isLt⟩ : Fin 32) := by
  funext a; apply Fin.ext
  fin_cases a <;> rfl

/-- Taking the maximum with −∞ changes nothing. -/
theorem max_negInf (y : Ideal .f32) : max negInf y = y := by
  show max (Ideal.ofBits .f32 0xFF800000#32) y = y
  simp [Ideal.ofBits, Ideal.ieee]

/-- A row's maximum, as the reference takes it, is the fold of max from −∞ over the row's lanes. -/
theorem rowMax_apply (y : FVec Ideal S100000x32 .f32) (p : Fin 100000) :
    refRowMax y (ix1 p) = (Finset.univ : Finset (Fin 32)).fold max negInf (fun k => y (ix2 p k)) := by
  unfold refRowMax
  rw [maximumf_apply, broadcastInDim_scalar_apply,
    Host.reduce_eq_fold_single FloatOps.maximumf y _ reducesTo_S100000x32_S100000_d1 reduces_rows h_S_ (ix1 p)]
  refine (max_negInf _).trans ?_
  exact congrArg (fun f : Fin 32 → Ideal .f32 => Finset.fold max negInf f (Finset.univ : Finset (Fin 32)))
    (funext fun k => congrArg y (lift_row p k))

/-- A per-row value stood up as a column and repeated along the row reads, at (p, q), the value of row p. -/
theorem spread_apply (u : FVec Ideal S100000 .f32) (p : Fin 100000) (q : Fin 32) :
    broadcastInDim S100000x32 ![0, 1] bcast_S100000x1_S100000x32_0_1 (broadcastInDim S100000x1 ![0] bcast_S100000_S100000x1_0 u) (ix2 p q) = u (ix1 p) := by
  rw [colSpread_apply, vecCol_apply]

/-- The shifted row at (p, k). -/
theorem shifted_apply (y : FVec Ideal S100000x32 .f32) (p : Fin 100000) (k : Fin 32) :
    refShifted y (ix2 p k) = y (ix2 p k) - (Finset.univ : Finset (Fin 32)).fold max negInf (fun k => y (ix2 p k)) := by
  unfold refShifted
  rw [subf_apply, spread_apply, rowMax_apply]

/-- A row's sum, as the reference takes it from 0, is the sum over the row's lanes. -/
theorem rowSum_apply (y : FVec Ideal S100000x32 .f32) (p : Fin 100000) :
    Host.reduceAdd y (constant (F := Ideal) S_ .f32 0x00000000#32) reducesTo_S100000x32_S100000_d1 h_S_ (ix1 p) = ∑ k : Fin 32, y (ix2 p k) := by
  rw [hostReduceAdd_apply, Ideal.hostReduceAdd_single reducesTo_S100000x32_S100000_d1 reduces_rows]
  show Ideal.ofBits .f32 0x00000000#32 + _ = _
  rw [Ideal.ofBits_zero_f32, zero_add]
  exact Finset.sum_congr rfl fun k _ => congrArg y (lift_row p k)

/-- The log-softmax is the specification's. -/
theorem logSoftmax_eq (z : FVec Ideal S100000x32 .f32) (b : FVec Ideal S32 .f32) :
    refLogSoftmax z b = logSoftmax z (fun k => b (ix1 k)) := by
  funext i
  obtain ⟨p, q, rfl⟩ : ∃ (p : Fin 100000) (q : Fin 32), i = ix2 p q := ⟨i 0, i 1, eq_ix2 i⟩
  unfold refLogSoftmax
  rw [subf_apply, colSpread_apply, hostLog_apply, vecCol_apply, rowSum_apply, shifted_apply]
  simp only [hostExp_apply, shifted_apply, biased_apply]
  rfl

end Cert.ReferenceIdeal.Dense

end
-- ==== Proof.RefRun.lean ====
/-
  The idealized reference's run, and its result as a function of its arguments.

  The reference is 98 host operations in a row. Every weakly fair execution runs them in order, so each buffer ends at
  the fold of the operations over the launch memory. The fold is read in consecutive stretches: the graph side
  (40 operations in three stretches: the extended edge lists and degrees, the selection of the nodes' weights, the edges' coefficients), the first projection and its propagation (17),
  bias, rectifier and the second projection (7), its propagation (16), bias and log-softmax (18, in six short stretches). From ANY contents
  each stretch leaves its result at the graph-side function (Stages.lean) or the reference's own dense stage
  (RefDense.lean) of the buffers it reads and leaves the other buffers alone; the dense stages are the
  specification's. Chained from the launch memory: the result is `network` of the six arguments.
-/
import proofs.«160578_j37391985279003_1_alg».proof.Proof.Gen.ReferenceIdeal
import proofs.«160578_j37391985279003_1_alg».proof.Proof.Model
import proofs.«160578_j37391985279003_1_alg».proof.Proof.RefDense
import Idealize.ShloMosaic.Lib.StableHlo.Run

noncomputable section

namespace Cert.ReferenceIdeal.Hand

open Cert.ReferenceIdeal Cert.ReferenceIdeal.Gen Cert.ReferenceIdeal.Dense Cert.Gcn
open Idealize.ShloMosaic Idealize.ShloMosaic.TcCoe Idealize.SL.Sem Idealize.ShloMosaic.StableHlo Idealize.ShloMosaic.ValueIdx

/-! ## @main as a list of operations, and the list in stretches -/

section Ops

variable {F : FTy → Type} [FloatOps F]

/-- The graph side, first part (operations 1 … 18): the extended edge lists, the degrees, where they are positive, and
    their inverse square roots. -/
abbrev opsGraphA : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- The selection of the nodes' weights (operations 19 … 21). -/
abbrev opsWhere : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The graph side, last part (operations 22 … 40): the edges' coefficients. -/
abbrev opsGraphB : List (HloOp τ sig (Elt F)) :=
  [ nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- The first projection and its propagation: operations 41 … 57. -/
abbrev opsLayer1 : List (HloOp τ sig (Elt F)) :=
  [ binary main_arg0 main_arg2 main_v30 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- Bias, rectifier and the second projection: operations 58 … 64. -/
abbrev opsDense2 : List (HloOp τ sig (Elt F)) :=
  [ unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)) ]

/-- The second propagation: operations 65 … 80. -/
abbrev opsLayer2 : List (HloOp τ sig (Elt F)) :=
  [ nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x32 ![0, 1] bcast_S3300000x1_S3300000x32_0_1 : (⟨S3300000x1, .f32⟩ : BufTy).Contents (Elt F) → (⟨S3300000x32, .f32⟩ : BufTy).Contents (Elt F)),
    binary main_v55 main_v57 main_v58 (mulf : (⟨S3300000x32, .f32⟩ : BufTy).Contents (Elt F) → (⟨S3300000x32, .f32⟩ : BufTy).Contents (Elt F) → (⟨S3300000x32, .f32⟩ : BufTy).Contents (Elt F)),
    nullary main_cst_11 (constant S_ .f32 0x00000000#32),
    unary main_cst_11 main_v59 (broadcastInDim S100000x32 ![] bcast_S_S100000x32 : (⟨S_, .f32⟩ : BufTy).Contents (Elt F) → (⟨S100000x32, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)) ]

/-- The second bias added (operations 81 … 83). -/
abbrev opsSmA : List (HloOp τ sig (Elt F)) :=
  [ unary main_arg5 main_v62 (broadcastInDim S1x32 ![1] bcast_S32_S1x32_1 : (⟨S32, .f32⟩ : BufTy).Contents (Elt F) → (⟨S1x32, .f32⟩ : BufTy).Contents (Elt F)),
    unary main_v62 main_v63 (broadcastInDim S100000x32 ![0, 1] bcast_S1x32_S100000x32_0_1 : (⟨S1x32, .f32⟩ : BufTy).Contents (Elt F) → (⟨S100000x32, .f32⟩ : BufTy).Contents (Elt F)),
    binary main_v61 main_v63 main_v64 (addf : (⟨S100000x32, .f32⟩ : BufTy).Contents (Elt F) → (⟨S100000x32, .f32⟩ : BufTy).Contents (Elt F) → (⟨S100000x32, .f32⟩ : BufTy).Contents (Elt F)) ]

/-- Each row's maximum (operations 84 … 85). -/
abbrev opsSmB : List (HloOp τ sig (Elt F)) :=
  [ TRef.nullary (TRef.of (T := ⟨S_, .f32⟩) main_call2_cst) (constant S_ .f32 0xFF800000#32),
    TRef.binary (TRef.of (T := ⟨S100000x32, .f32⟩) main_v64) (TRef.of (T := ⟨S_, .f32⟩) main_call2_cst) (TRef.of (T := ⟨S100000, .f32⟩) main_call2_v0) (fun x v => Host.reduce FloatOps.maximumf x v reducesTo_S100000x32_S100000_d1 h_S_) ]

/-- The maximum with −∞ (operations 86 … 88). -/
abbrev opsSmC : List (HloOp τ sig (Elt F)) :=
  [ TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf ]

/-- Each row shifted by its maximum (operations 89 … 91). -/
abbrev opsSmD : List (HloOp τ sig (Elt F)) :=
  [ TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x32, .f32⟩) main_call2_v4) (broadcastInDim S100000x32 ![0, 1] bcast_S100000x1_S100000x32_0_1),
    TRef.binary (TRef.of (T := ⟨S100000x32, .f32⟩) main_v64) (TRef.of (T := ⟨S100000x32, .f32⟩) main_call2_v4) (TRef.of (T := ⟨S100000x32, .f32⟩) main_call2_v5) subf ]

/-- Each shifted row's sum of exponentials (operations 92 … 94). -/
abbrev opsSmE : List (HloOp τ sig (Elt F)) :=
  [ TRef.unary (TRef.of (T := ⟨S100000x32, .f32⟩) main_call2_v5) (TRef.of (T := ⟨S100000x32, .f32⟩) main_call2_v6) Host.exp,
    TRef.nullary (TRef.of (T := ⟨S_, .f32⟩) main_call2_cst_1) (constant S_ .f32 0x00000000#32),
    TRef.binary (TRef.of (T := ⟨S100000x32, .f32⟩) main_call2_v6) (TRef.of (T := ⟨S_, .f32⟩) main_call2_cst_1) (TRef.of (T := ⟨S100000, .f32⟩) main_call2_v7) (fun x v => Host.reduceAdd x v reducesTo_S100000x32_S100000_d1 h_S_) ]

/-- The logarithm subtracted (operations 95 … 98). -/
abbrev opsSmF : List (HloOp τ sig (Elt F)) :=
  [ TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x32, .f32⟩) main_call2_v10) (broadcastInDim S100000x32 ![0, 1] bcast_S100000x1_S100000x32_0_1),
    TRef.binary (TRef.of (T := ⟨S100000x32, .f32⟩) main_call2_v5) (TRef.of (T := ⟨S100000x32, .f32⟩) main_call2_v10) (TRef.of (T := ⟨S100000x32, .f32⟩) main_v65) subf ]

/-- @main's 98 operations, in order (a called function's operations stand in its call's place). -/
abbrev ops : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)),
    binary main_arg0 main_arg2 main_v30 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x32 ![0, 1] bcast_S3300000x1_S3300000x32_0_1 : (⟨S3300000x1, .f32⟩ : BufTy).Contents (Elt F) → (⟨S3300000x32, .f32⟩ : BufTy).Contents (Elt F)),
    binary main_v55 main_v57 main_v58 (mulf : (⟨S3300000x32, .f32⟩ : BufTy).Contents (Elt F) → (⟨S3300000x32, .f32⟩ : BufTy).Contents (Elt F) → (⟨S3300000x32, .f32⟩ : BufTy).Contents (Elt F)),
    nullary main_cst_11 (constant S_ .f32 0x00000000#32),
    unary main_cst_11 main_v59 (broadcastInDim S100000x32 ![] bcast_S_S100000x32 : (⟨S_, .f32⟩ : BufTy).Contents (Elt F) → (⟨S100000x32, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    unary main_arg5 main_v62 (broadcastInDim S1x32 ![1] bcast_S32_S1x32_1 : (⟨S32, .f32⟩ : BufTy).Contents (Elt F) → (⟨S1x32, .f32⟩ : BufTy).Contents (Elt F)),
    unary main_v62 main_v63 (broadcastInDim S100000x32 ![0, 1] bcast_S1x32_S100000x32_0_1 : (⟨S1x32, .f32⟩ : BufTy).Contents (Elt F) → (⟨S100000x32, .f32⟩ : BufTy).Contents (Elt F)),
    binary main_v61 main_v63 main_v64 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call2_cst) (constant S_ .f32 0xFF800000#32),
    TRef.binary (TRef.of (T := ⟨S100000x32, .f32⟩) main_v64) (TRef.of (T := ⟨S_, .f32⟩) main_call2_cst) (TRef.of (T := ⟨S100000, .f32⟩) main_call2_v0) (fun x v => Host.reduce FloatOps.maximumf x v reducesTo_S100000x32_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x32, .f32⟩) main_call2_v4) (broadcastInDim S100000x32 ![0, 1] bcast_S100000x1_S100000x32_0_1),
    TRef.binary (TRef.of (T := ⟨S100000x32, .f32⟩) main_v64) (TRef.of (T := ⟨S100000x32, .f32⟩) main_call2_v4) (TRef.of (T := ⟨S100000x32, .f32⟩) main_call2_v5) subf,
    TRef.unary (TRef.of (T := ⟨S100000x32, .f32⟩) main_call2_v5) (TRef.of (T := ⟨S100000x32, .f32⟩) main_call2_v6) Host.exp,
    TRef.nullary (TRef.of (T := ⟨S_, .f32⟩) main_call2_cst_1) (constant S_ .f32 0x00000000#32),
    TRef.binary (TRef.of (T := ⟨S100000x32, .f32⟩) main_call2_v6) (TRef.of (T := ⟨S_, .f32⟩) main_call2_cst_1) (TRef.of (T := ⟨S100000, .f32⟩) main_call2_v7) (fun x v => Host.reduceAdd x v reducesTo_S100000x32_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x32, .f32⟩) main_call2_v10) (broadcastInDim S100000x32 ![0, 1] bcast_S100000x1_S100000x32_0_1),
    TRef.binary (TRef.of (T := ⟨S100000x32, .f32⟩) main_call2_v5) (TRef.of (T := ⟨S100000x32, .f32⟩) main_call2_v10) (TRef.of (T := ⟨S100000x32, .f32⟩) main_v65) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
/-- The list is its seven stretches in a row. -/
theorem ops_split : (ops : List (HloOp τ sig (Elt F))) = opsGraphA ++ (opsWhere ++ (opsGraphB ++ (opsLayer1 ++ (opsDense2 ++ (opsLayer2 ++ (opsSmA ++ (opsSmB ++ (opsSmC ++ (opsSmD ++ (opsSmE ++ opsSmF)))))))))) := rfl

end Ops

/-- Running two lists in a row folds the first, then the second. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, after_cons, ih]

/-! ## The log-softmax in the reference's own steps -/

/-- A row's maximum. -/
def stepMax (y : FVec Ideal S100000x32 .f32) : FVec Ideal S100000 .f32 :=
  Host.reduce FloatOps.maximumf y (constant (F := Ideal) S_ .f32 0xFF800000#32) reducesTo_S100000x32_S100000_d1 h_S_
/-- Its maximum with −∞. -/
def stepClamp (r : FVec Ideal S100000 .f32) : FVec Ideal S100000 .f32 :=
  maximumf (F := Ideal) (broadcastInDim S100000 ![] bcast_S_S100000 (constant (F := Ideal) S_ .f32 0xFF800000#32)) r
/-- The rows shifted by per-row values. -/
def stepShift (y : FVec Ideal S100000x32 .f32) (mx : FVec Ideal S100000 .f32) : FVec Ideal S100000x32 .f32 :=
  subf (F := Ideal) y (broadcastInDim S100000x32 ![0, 1] bcast_S100000x1_S100000x32_0_1 (broadcastInDim S100000x1 ![0] bcast_S100000_S100000x1_0 mx))
/-- Each row's sum of exponentials. -/
def stepSum (sh : FVec Ideal S100000x32 .f32) : FVec Ideal S100000 .f32 :=
  Host.reduceAdd (Host.exp sh) (constant (F := Ideal) S_ .f32 0x00000000#32) reducesTo_S100000x32_S100000_d1 h_S_
/-- The per-row logarithms subtracted. -/
def stepOut (sh : FVec Ideal S100000x32 .f32) (sm : FVec Ideal S100000 .f32) : FVec Ideal S100000x32 .f32 :=
  subf (F := Ideal) sh (broadcastInDim S100000x32 ![0, 1] bcast_S100000x1_S100000x32_0_1 (Host.log (broadcastInDim S100000x1 ![0] bcast_S100000_S100000x1_0 sm)))

/-- The steps compose to the reference's log-softmax. -/
theorem steps_eq (z : FVec Ideal S100000x32 .f32) (b : FVec Ideal S32 .f32) :
    stepOut (stepShift (refBiased z b) (stepClamp (stepMax (refBiased z b))))
      (stepSum (stepShift (refBiased z b) (stepClamp (stepMax (refBiased z b))))) = refLogSoftmax z b := rfl

/-- A buffer's contents after a literal list of host operations: each operation's result at its own buffer, anything
    else as it was; a called function's operations carry their values through casts along `rfl`, which are dropped. -/
local macro "ref_eval" : tactic =>
  `(tactic| (simp only [opsGraphA, opsWhere, opsGraphB, opsLayer1, opsDense2, opsLayer2, opsSmA, opsSmB, opsSmC, opsSmD, opsSmE, opsSmF]; after_results_simp <;> (try simp only [cast_eq, id_eq]) <;> rfl))

/-! ## The stretches, from any contents -/

section Stretches

variable (W : Valuation τ sig (Elt Ideal))

-- The scatters, gathers, products and reductions stay folded while a stretch is read: the equations below never look inside them.
attribute [local irreducible] Host.gather Host.scatterAdd Host.reduce Host.reduceAdd concatenate

set_option maxHeartbeats 4000000 in
theorem first_src : StableHlo.after opsGraphA W (Proc.devRef .tc main_v3) = Cert.KernelIdeal.Stages.srcIdx (W (Proc.devRef .tc main_arg1)) := by ref_eval
set_option maxHeartbeats 4000000 in
theorem first_dst : StableHlo.after opsGraphA W (Proc.devRef .tc main_v6) = Cert.KernelIdeal.Stages.dstIdx (W (Proc.devRef .tc main_arg1)) := by ref_eval
set_option maxHeartbeats 4000000 in
theorem first_pos : StableHlo.after opsGraphA W (Proc.devRef .tc main_v12)
    = cmpf (F := Ideal) .ogt (Cert.KernelIdeal.Stages.degree (Cert.KernelIdeal.Stages.dstIdx (W (Proc.devRef .tc main_arg1)))) (broadcastInDim S100000 ![] bcast_S_S100000 (constant S_ .f32 0x00000000#32)) := by ref_eval
set_option maxHeartbeats 4000000 in
theorem first_rsqrt : StableHlo.after opsGraphA W (Proc.devRef .tc main_v13) = Host.rsqrt (Cert.KernelIdeal.Stages.degree (Cert.KernelIdeal.Stages.dstIdx (W (Proc.devRef .tc main_arg1)))) := by ref_eval
set_option maxHeartbeats 4000000 in
theorem first_zero : StableHlo.after opsGraphA W (Proc.devRef .tc main_cst_2) = constant (F := Ideal) S_ .f32 0x00000000#32 := by ref_eval
set_option maxHeartbeats 4000000 in
theorem first_keep_arg0 : StableHlo.after opsGraphA W (Proc.devRef .tc main_arg0) = W (Proc.devRef .tc main_arg0) := by ref_eval
set_option maxHeartbeats 4000000 in
theorem first_keep_arg2 : StableHlo.after opsGraphA W (Proc.devRef .tc main_arg2) = W (Proc.devRef .tc main_arg2) := by ref_eval
set_option maxHeartbeats 4000000 in
theorem first_keep_arg3 : StableHlo.after opsGraphA W (Proc.devRef .tc main_arg3) = W (Proc.devRef .tc main_arg3) := by ref_eval
set_option maxHeartbeats 4000000 in
theorem first_keep_arg4 : StableHlo.after opsGraphA W (Proc.devRef .tc main_arg4) = W (Proc.devRef .tc main_arg4) := by ref_eval
set_option maxHeartbeats 4000000 in
theorem first_keep_arg5 : StableHlo.after opsGraphA W (Proc.devRef .tc main_arg5) = W (Proc.devRef .tc main_arg5) := by ref_eval

set_option maxHeartbeats 4000000 in
theorem sel_wt : StableHlo.after opsWhere W (Proc.devRef .tc main_v14)
    = select (W (Proc.devRef .tc main_v12)) (W (Proc.devRef .tc main_v13)) (broadcastInDim S100000 ![] bcast_S_S100000 (W (Proc.devRef .tc main_cst_2))) := by ref_eval
set_option maxHeartbeats 4000000 in
theorem sel_keep_v3 : StableHlo.after opsWhere W (Proc.devRef .tc main_v3) = W (Proc.devRef .tc main_v3) := by ref_eval
set_option maxHeartbeats 4000000 in
theorem sel_keep_v6 : StableHlo.after opsWhere W (Proc.devRef .tc main_v6) = W (Proc.devRef .tc main_v6) := by ref_eval
set_option maxHeartbeats 4000000 in
theorem sel_keep_arg0 : StableHlo.after opsWhere W (Proc.devRef .tc main_arg0) = W (Proc.devRef .tc main_arg0) := by ref_eval
set_option maxHeartbeats 4000000 in
theorem sel_keep_arg2 : StableHlo.after opsWhere W (Proc.devRef .tc main_arg2) = W (Proc.devRef .tc main_arg2) := by ref_eval
set_option maxHeartbeats 4000000 in
theorem sel_keep_arg3 : StableHlo.after opsWhere W (Proc.devRef .tc main_arg3) = W (Proc.devRef .tc main_arg3) := by ref_eval
set_option maxHeartbeats 4000000 in
theorem sel_keep_arg4 : StableHlo.after opsWhere W (Proc.devRef .tc main_arg4) = W (Proc.devRef .tc main_arg4) := by ref_eval
set_option maxHeartbeats 4000000 in
theorem sel_keep_arg5 : StableHlo.after opsWhere W (Proc.devRef .tc main_arg5) = W (Proc.devRef .tc main_arg5) := by ref_eval

set_option maxHeartbeats 4000000 in
theorem coef_nrm : StableHlo.after opsGraphB W (Proc.devRef .tc main_v29)
    = Cert.KernelIdeal.Stages.edgeNormOf (W (Proc.devRef .tc main_v14)) (W (Proc.devRef .tc main_v3)) (W (Proc.devRef .tc main_v6)) := by ref_eval
set_option maxHeartbeats 4000000 in
theorem coef_keep_v3 : StableHlo.after opsGraphB W (Proc.devRef .tc main_v3) = W (Proc.devRef .tc main_v3) := by ref_eval
set_option maxHeartbeats 4000000 in
theorem coef_keep_v6 : StableHlo.after opsGraphB W (Proc.devRef .tc main_v6) = W (Proc.devRef .tc main_v6) := by ref_eval
set_option maxHeartbeats 4000000 in
theorem coef_keep_arg0 : StableHlo.after opsGraphB W (Proc.devRef .tc main_arg0) = W (Proc.devRef .tc main_arg0) := by ref_eval
set_option maxHeartbeats 4000000 in
theorem coef_keep_arg2 : StableHlo.after opsGraphB W (Proc.devRef .tc main_arg2) = W (Proc.devRef .tc main_arg2) := by ref_eval
set_option maxHeartbeats 4000000 in
theorem coef_keep_arg3 : StableHlo.after opsGraphB W (Proc.devRef .tc main_arg3) = W (Proc.devRef .tc main_arg3) := by ref_eval
set_option maxHeartbeats 4000000 in
theorem coef_keep_arg4 : StableHlo.after opsGraphB W (Proc.devRef .tc main_arg4) = W (Proc.devRef .tc main_arg4) := by ref_eval
set_option maxHeartbeats 4000000 in
theorem coef_keep_arg5 : StableHlo.after opsGraphB W (Proc.devRef .tc main_arg5) = W (Proc.devRef .tc main_arg5) := by ref_eval

set_option maxRecDepth 65536 in
set_option maxHeartbeats 4000000 in
theorem layer1_agg : StableHlo.after opsLayer1 W (Proc.devRef .tc main_v43)
    = Cert.KernelIdeal.Stages.aggregate16 (refProj1 (W (Proc.devRef .tc main_arg0)) (W (Proc.devRef .tc main_arg2)))
        (W (Proc.devRef .tc main_v3)) (W (Proc.devRef .tc main_v6)) (W (Proc.devRef .tc main_v29)) := by ref_eval
set_option maxHeartbeats 4000000 in
theorem layer1_keep_v3 : StableHlo.after opsLayer1 W (Proc.devRef .tc main_v3) = W (Proc.devRef .tc main_v3) := by ref_eval
set_option maxHeartbeats 4000000 in
theorem layer1_keep_v6 : StableHlo.after opsLayer1 W (Proc.devRef .tc main_v6) = W (Proc.devRef .tc main_v6) := by ref_eval
set_option maxHeartbeats 4000000 in
theorem layer1_keep_v29 : StableHlo.after opsLayer1 W (Proc.devRef .tc main_v29) = W (Proc.devRef .tc main_v29) := by ref_eval
set_option maxHeartbeats 4000000 in
theorem layer1_keep_arg3 : StableHlo.after opsLayer1 W (Proc.devRef .tc main_arg3) = W (Proc.devRef .tc main_arg3) := by ref_eval
set_option maxHeartbeats 4000000 in
theorem layer1_keep_arg4 : StableHlo.after opsLayer1 W (Proc.devRef .tc main_arg4) = W (Proc.devRef .tc main_arg4) := by ref_eval
set_option maxHeartbeats 4000000 in
theorem layer1_keep_arg5 : StableHlo.after opsLayer1 W (Proc.devRef .tc main_arg5) = W (Proc.devRef .tc main_arg5) := by ref_eval

set_option maxRecDepth 65536 in
set_option maxHeartbeats 4000000 in
theorem dense2_h : StableHlo.after opsDense2 W (Proc.devRef .tc main_v48)
    = refProj2 (W (Proc.devRef .tc main_v43)) (W (Proc.devRef .tc main_arg3)) (W (Proc.devRef .tc main_arg4)) := by ref_eval
set_option maxHeartbeats 4000000 in
theorem dense2_keep_v3 : StableHlo.after opsDense2 W (Proc.devRef .tc main_v3) = W (Proc.devRef .tc main_v3) := by ref_eval
set_option maxHeartbeats 4000000 in
theorem dense2_keep_v6 : StableHlo.after opsDense2 W (Proc.devRef .tc main_v6) = W (Proc.devRef .tc main_v6) := by ref_eval
set_option maxHeartbeats 4000000 in
theorem dense2_keep_v29 : StableHlo.after opsDense2 W (Proc.devRef .tc main_v29) = W (Proc.devRef .tc main_v29) := by ref_eval
set_option maxHeartbeats 4000000 in
theorem dense2_keep_arg5 : StableHlo.after opsDense2 W (Proc.devRef .tc main_arg5) = W (Proc.devRef .tc main_arg5) := by ref_eval

set_option maxRecDepth 65536 in
set_option maxHeartbeats 4000000 in
theorem layer2_agg : StableHlo.after opsLayer2 W (Proc.devRef .tc main_v61)
    = Cert.KernelIdeal.Stages.aggregate32 (W (Proc.devRef .tc main_v48))
        (W (Proc.devRef .tc main_v3)) (W (Proc.devRef .tc main_v6)) (W (Proc.devRef .tc main_v29)) := by ref_eval
set_option maxHeartbeats 4000000 in
theorem layer2_keep_arg5 : StableHlo.after opsLayer2 W (Proc.devRef .tc main_arg5) = W (Proc.devRef .tc main_arg5) := by ref_eval

set_option maxHeartbeats 4000000 in
theorem smA_out : StableHlo.after opsSmA W (Proc.devRef .tc main_v64) = refBiased (W (Proc.devRef .tc main_v61)) (W (Proc.devRef .tc main_arg5)) := by ref_eval
set_option maxHeartbeats 4000000 in
theorem smB_out : StableHlo.after opsSmB W (Proc.devRef .tc main_call2_v0) = stepMax (W (Proc.devRef .tc main_v64)) := by ref_eval
set_option maxHeartbeats 4000000 in
theorem smB_keep_v64 : StableHlo.after opsSmB W (Proc.devRef .tc main_v64) = W (Proc.devRef .tc main_v64) := by ref_eval
set_option maxHeartbeats 4000000 in
theorem smC_out : StableHlo.after opsSmC W (Proc.devRef .tc main_call2_v2) = stepClamp (W (Proc.devRef .tc main_call2_v0)) := by ref_eval
set_option maxHeartbeats 4000000 in
theorem smC_keep_v64 : StableHlo.after opsSmC W (Proc.devRef .tc main_v64) = W (Proc.devRef .tc main_v64) := by ref_eval
set_option maxHeartbeats 4000000 in
theorem smD_out : StableHlo.after opsSmD W (Proc.devRef .tc main_call2_v5) = stepShift (W (Proc.devRef .tc main_v64)) (W (Proc.devRef .tc main_call2_v2)) := by ref_eval
set_option maxHeartbeats 4000000 in
theorem smE_out : StableHlo.after opsSmE W (Proc.devRef .tc main_call2_v7) = stepSum (W (Proc.devRef .tc main_call2_v5)) := by ref_eval
set_option maxHeartbeats 4000000 in
theorem smE_keep_call2_v5 : StableHlo.after opsSmE W (Proc.devRef .tc main_call2_v5) = W (Proc.devRef .tc main_call2_v5) := by ref_eval
set_option maxHeartbeats 4000000 in
theorem smF_out : StableHlo.after opsSmF W (Proc.devRef .tc main_v65) = stepOut (W (Proc.devRef .tc main_call2_v5)) (W (Proc.devRef .tc main_call2_v7)) := by ref_eval

end Stretches

/-! ## The fold, stretch by stretch -/

variable (m : (ℓ : Loc nD τ sig) → Buf (Elt Ideal) ℓ) (c : Dev nD)

abbrev X := m ((c.tc : Thread nD τ).loc main_arg0)
abbrev E := m ((c.tc : Thread nD τ).loc main_arg1)
abbrev W1' := m ((c.tc : Thread nD τ).loc main_arg2)
abbrev B1 := m ((c.tc : Thread nD τ).loc main_arg3)
abbrev W2' := m ((c.tc : Thread nD τ).loc main_arg4)
abbrev B2 := m ((c.tc : Thread nD τ).loc main_arg5)

/-- The buffers after each stretch. -/
abbrev Ra : Valuation τ sig (Elt Ideal) := StableHlo.after opsGraphA (launchContents m c)
abbrev Rb : Valuation τ sig (Elt Ideal) := StableHlo.after opsWhere (Ra m c)
abbrev R1 : Valuation τ sig (Elt Ideal) := StableHlo.after opsGraphB (Rb m c)
abbrev R2 : Valuation τ sig (Elt Ideal) := StableHlo.after opsLayer1 (R1 m c)
abbrev R3 : Valuation τ sig (Elt Ideal) := StableHlo.after opsDense2 (R2 m c)
abbrev R4 : Valuation τ sig (Elt Ideal) := StableHlo.after opsLayer2 (R3 m c)
abbrev R5a : Valuation τ sig (Elt Ideal) := StableHlo.after opsSmA (R4 m c)
abbrev R5b : Valuation τ sig (Elt Ideal) := StableHlo.after opsSmB (R5a m c)
abbrev R5c : Valuation τ sig (Elt Ideal) := StableHlo.after opsSmC (R5b m c)
abbrev R5d : Valuation τ sig (Elt Ideal) := StableHlo.after opsSmD (R5c m c)
abbrev R5e : Valuation τ sig (Elt Ideal) := StableHlo.after opsSmE (R5d m c)
abbrev R5 : Valuation τ sig (Elt Ideal) := StableHlo.after opsSmF (R5e m c)

theorem after_ops : StableHlo.after ops (launchContents m c) = R5 m c := by
  rw [ops_split, after_append, after_append, after_append, after_append, after_append, after_append, after_append, after_append,
    after_append, after_append, after_append]

section
open Cert.KernelIdeal.Stages

theorem ra_src : Ra m c (Proc.devRef .tc main_v3) = srcIdx (E m c) := first_src (launchContents m c)
theorem ra_dst : Ra m c (Proc.devRef .tc main_v6) = dstIdx (E m c) := first_dst (launchContents m c)
theorem ra_pos : Ra m c (Proc.devRef .tc main_v12)
    = cmpf (F := Ideal) .ogt (degree (dstIdx (E m c))) (broadcastInDim S100000 ![] bcast_S_S100000 (constant S_ .f32 0x00000000#32)) := first_pos (launchContents m c)
theorem ra_rsqrt : Ra m c (Proc.devRef .tc main_v13) = Host.rsqrt (degree (dstIdx (E m c))) := first_rsqrt (launchContents m c)
theorem ra_zero : Ra m c (Proc.devRef .tc main_cst_2) = constant (F := Ideal) S_ .f32 0x00000000#32 := first_zero (launchContents m c)
theorem ra_x : Ra m c (Proc.devRef .tc main_arg0) = X m c := first_keep_arg0 (launchContents m c)
theorem ra_w1 : Ra m c (Proc.devRef .tc main_arg2) = W1' m c := first_keep_arg2 (launchContents m c)
theorem ra_b1 : Ra m c (Proc.devRef .tc main_arg3) = B1 m c := first_keep_arg3 (launchContents m c)
theorem ra_w2 : Ra m c (Proc.devRef .tc main_arg4) = W2' m c := first_keep_arg4 (launchContents m c)
theorem ra_b2 : Ra m c (Proc.devRef .tc main_arg5) = B2 m c := first_keep_arg5 (launchContents m c)

theorem rb_wt : Rb m c (Proc.devRef .tc main_v14) = invSqrtDeg (dstIdx (E m c)) :=
  (sel_wt (Ra m c)).trans (by rw [ra_pos m c, ra_rsqrt m c, ra_zero m c]; rfl)
theorem rb_src : Rb m c (Proc.devRef .tc main_v3) = srcIdx (E m c) := (sel_keep_v3 (Ra m c)).trans (ra_src m c)
theorem rb_dst : Rb m c (Proc.devRef .tc main_v6) = dstIdx (E m c) := (sel_keep_v6 (Ra m c)).trans (ra_dst m c)
theorem rb_x : Rb m c (Proc.devRef .tc main_arg0) = X m c := (sel_keep_arg0 (Ra m c)).trans (ra_x m c)
theorem rb_w1 : Rb m c (Proc.devRef .tc main_arg2) = W1' m c := (sel_keep_arg2 (Ra m c)).trans (ra_w1 m c)
theorem rb_b1 : Rb m c (Proc.devRef .tc main_arg3) = B1 m c := (sel_keep_arg3 (Ra m c)).trans (ra_b1 m c)
theorem rb_w2 : Rb m c (Proc.devRef .tc main_arg4) = W2' m c := (sel_keep_arg4 (Ra m c)).trans (ra_w2 m c)
theorem rb_b2 : Rb m c (Proc.devRef .tc main_arg5) = B2 m c := (sel_keep_arg5 (Ra m c)).trans (ra_b2 m c)

theorem r1_nrm : R1 m c (Proc.devRef .tc main_v29) = edgeNorm (srcIdx (E m c)) (dstIdx (E m c)) :=
  (coef_nrm (Rb m c)).trans (by rw [rb_wt m c, rb_src m c, rb_dst m c]; rfl)
theorem r1_src : R1 m c (Proc.devRef .tc main_v3) = srcIdx (E m c) := (coef_keep_v3 (Rb m c)).trans (rb_src m c)
theorem r1_dst : R1 m c (Proc.devRef .tc main_v6) = dstIdx (E m c) := (coef_keep_v6 (Rb m c)).trans (rb_dst m c)
theorem r1_x : R1 m c (Proc.devRef .tc main_arg0) = X m c := (coef_keep_arg0 (Rb m c)).trans (rb_x m c)
theorem r1_w1 : R1 m c (Proc.devRef .tc main_arg2) = W1' m c := (coef_keep_arg2 (Rb m c)).trans (rb_w1 m c)
theorem r1_b1 : R1 m c (Proc.devRef .tc main_arg3) = B1 m c := (coef_keep_arg3 (Rb m c)).trans (rb_b1 m c)
theorem r1_w2 : R1 m c (Proc.devRef .tc main_arg4) = W2' m c := (coef_keep_arg4 (Rb m c)).trans (rb_w2 m c)
theorem r1_b2 : R1 m c (Proc.devRef .tc main_arg5) = B2 m c := (coef_keep_arg5 (Rb m c)).trans (rb_b2 m c)

/-- The first layer after propagation. -/
abbrev agg1 := aggregate16 (proj1 (X m c) (W1' m c)) (srcIdx (E m c)) (dstIdx (E m c)) (edgeNorm (srcIdx (E m c)) (dstIdx (E m c)))

theorem r2_agg : R2 m c (Proc.devRef .tc main_v43) = agg1 m c :=
  (layer1_agg (R1 m c)).trans (by rw [r1_x m c, r1_w1 m c, r1_src m c, r1_dst m c, r1_nrm m c, proj1_eq])
theorem r2_src : R2 m c (Proc.devRef .tc main_v3) = srcIdx (E m c) := (layer1_keep_v3 (R1 m c)).trans (r1_src m c)
theorem r2_dst : R2 m c (Proc.devRef .tc main_v6) = dstIdx (E m c) := (layer1_keep_v6 (R1 m c)).trans (r1_dst m c)
theorem r2_nrm : R2 m c (Proc.devRef .tc main_v29) = edgeNorm (srcIdx (E m c)) (dstIdx (E m c)) := (layer1_keep_v29 (R1 m c)).trans (r1_nrm m c)
theorem r2_b1 : R2 m c (Proc.devRef .tc main_arg3) = B1 m c := (layer1_keep_arg3 (R1 m c)).trans (r1_b1 m c)
theorem r2_w2 : R2 m c (Proc.devRef .tc main_arg4) = W2' m c := (layer1_keep_arg4 (R1 m c)).trans (r1_w2 m c)
theorem r2_b2 : R2 m c (Proc.devRef .tc main_arg5) = B2 m c := (layer1_keep_arg5 (R1 m c)).trans (r1_b2 m c)

/-- The second layer before propagation. -/
abbrev hid2 := proj2 (agg1 m c) (fun k => (B1 m c : S16.Idx → Ideal .f32) (ix1 k)) (W2' m c)

theorem r3_h : R3 m c (Proc.devRef .tc main_v48) = hid2 m c :=
  (dense2_h (R2 m c)).trans (by rw [r2_agg m c, r2_b1 m c, r2_w2 m c, proj2_eq])
theorem r3_src : R3 m c (Proc.devRef .tc main_v3) = srcIdx (E m c) := (dense2_keep_v3 (R2 m c)).trans (r2_src m c)
theorem r3_dst : R3 m c (Proc.devRef .tc main_v6) = dstIdx (E m c) := (dense2_keep_v6 (R2 m c)).trans (r2_dst m c)
theorem r3_nrm : R3 m c (Proc.devRef .tc main_v29) = edgeNorm (srcIdx (E m c)) (dstIdx (E m c)) := (dense2_keep_v29 (R2 m c)).trans (r2_nrm m c)
theorem r3_b2 : R3 m c (Proc.devRef .tc main_arg5) = B2 m c := (dense2_keep_arg5 (R2 m c)).trans (r2_b2 m c)

/-- The second layer after propagation. -/
abbrev agg2 := aggregate32 (hid2 m c) (srcIdx (E m c)) (dstIdx (E m c)) (edgeNorm (srcIdx (E m c)) (dstIdx (E m c)))

theorem r4_agg : R4 m c (Proc.devRef .tc main_v61) = agg2 m c :=
  (layer2_agg (R3 m c)).trans (by rw [r3_h m c, r3_src m c, r3_dst m c, r3_nrm m c])
theorem r4_b2 : R4 m c (Proc.devRef .tc main_arg5) = B2 m c := (layer2_keep_arg5 (R3 m c)).trans (r3_b2 m c)

/-- The second layer with its bias. -/
abbrev out2 := refBiased (agg2 m c) (B2 m c)

theorem r5a_y : R5a m c (Proc.devRef .tc main_v64) = out2 m c :=
  (smA_out (R4 m c)).trans (by rw [r4_agg m c, r4_b2 m c])
theorem r5b_mx : R5b m c (Proc.devRef .tc main_call2_v0) = stepMax (out2 m c) :=
  (smB_out (R5a m c)).trans (by rw [r5a_y m c])
theorem r5b_y : R5b m c (Proc.devRef .tc main_v64) = out2 m c := (smB_keep_v64 (R5a m c)).trans (r5a_y m c)
theorem r5c_mx : R5c m c (Proc.devRef .tc main_call2_v2) = stepClamp (stepMax (out2 m c)) :=
  (smC_out (R5b m c)).trans (by rw [r5b_mx m c])
theorem r5c_y : R5c m c (Proc.devRef .tc main_v64) = out2 m c := (smC_keep_v64 (R5b m c)).trans (r5b_y m c)
theorem r5d_sh : R5d m c (Proc.devRef .tc main_call2_v5) = stepShift (out2 m c) (stepClamp (stepMax (out2 m c))) :=
  (smD_out (R5c m c)).trans (by rw [r5c_y m c, r5c_mx m c])
theorem r5e_sum : R5e m c (Proc.devRef .tc main_call2_v7) = stepSum (stepShift (out2 m c) (stepClamp (stepMax (out2 m c)))) :=
  (smE_out (R5d m c)).trans (by rw [r5d_sh m c])
theorem r5e_sh : R5e m c (Proc.devRef .tc main_call2_v5) = stepShift (out2 m c) (stepClamp (stepMax (out2 m c))) :=
  (smE_keep_call2_v5 (R5d m c)).trans (r5d_sh m c)

/-- THE RESULT BUFFER after the last operation is the network's output of the six arguments. -/
theorem result_eq : StableHlo.after ops (launchContents m c) (Proc.devRef .tc main_v65)
    = network (X m c) (E m c) (W1' m c) (B1 m c) (W2' m c) (B2 m c) := by
  rw [after_ops m c]
  refine (smF_out (R5e m c)).trans ?_
  rw [r5e_sh m c, r5e_sum m c, steps_eq, logSoftmax_eq]
  rfl

end

set_option maxRecDepth 8192 in
set_option maxHeartbeats 39200000 in
/-- THE RUN, READ: every weakly fair execution of the idealized reference ends with the result buffer at the network's
    output of the launched arguments, and the arguments as launched. -/
theorem run (ρ : Dev nD → PrngReg) :
    θ_run defs (onTc (τ := τ) (main (F := Ideal))) ⟨m, fun _ => 0, ρ⟩ fun r => ∀ c : Dev nD,
      r.2.mem ((c.tc : Thread nD τ).loc main_v65) = network (X m c) (E m c) (W1' m c) (B1 m c) (W2' m c) (B2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Hand

end
-- ==== Proof.lean ====
/-
  A two-layer graph convolution (x·W₁ propagated along the edges with symmetric normalization, bias, rectifier, ·W₂,
  propagated again, bias, row-wise log-softmax) computed by three kernels among host scatters and gathers, against the same
  network computed by host operations alone: equal results at the ideal instance.

  The two programs run the SAME graph side (the edge lists with self loops, degrees, coefficients, the two
  propagation steps: Proof/Stages.lean) and differ only in the three dense stages, which the kernels compute a block of
  5000 rows at a time. Each dense stage's entry depends on one row of its first operand only, so the blocks a kernel
  writes back are the blocks of the whole-array stage (Proof/Layer1.lean, Layer2.lean, LogSoftmax.lean against
  Proof/Spec.lean), and the reference's host spelling of each stage is the same formula entry by entry
  (Proof/RefDense.lean). Both runs are read back stretch by stretch (Proof/KernelRun.lean and KernelHost.lean; Proof/RefRun.lean)
  to ONE function of the six arguments, `Cert.Gcn.network` (Proof/Model.lean). No law of arithmetic beyond the two
  sides computing the same sums is used, so the finiteness of the inputs is never opened.
-/
import proofs.«160578_j37391985279003_1_alg».proof.Defs
import proofs.«160578_j37391985279003_1_alg».proof.Proof.Gen.Kernel
import proofs.«160578_j37391985279003_1_alg».proof.Proof.Gen.Kernel.Frame
import proofs.«160578_j37391985279003_1_alg».proof.Proof.Gen.KernelIdeal
import proofs.«160578_j37391985279003_1_alg».proof.Proof.Gen.KernelIdeal.Frame
import proofs.«160578_j37391985279003_1_alg».proof.Proof.Gen.ReferenceIdeal
import proofs.«160578_j37391985279003_1_alg».proof.Proof.Gen.Pre_finite_inputs
import proofs.«160578_j37391985279003_1_alg».proof.Proof.KernelHost
import proofs.«160578_j37391985279003_1_alg».proof.Proof.RefRun

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Hand.run m ρ)

/-- The ideal pass rewrote nothing. -/
theorem preserves : Cert.preserves_Kernel_KernelIdeal := trivial

/-- From memories agreeing on the arguments both programs end with their result at the network's output of those
    arguments. -/
theorem algebraic : Cert.algebraic_KernelIdeal_ReferenceIdeal := by
  intro m ρ m' ρ' _ hagree
  refine ⟨fun c => Cert.Gcn.network (Cert.KernelIdeal.Host.X m c) (Cert.KernelIdeal.Host.E m c) (Cert.KernelIdeal.Host.W1' m c)
    (Cert.KernelIdeal.Host.B1 m c) (Cert.KernelIdeal.Host.W2' m c) (Cert.KernelIdeal.Host.B2 m c), Cert.KernelIdeal.Host.run m ρ, ?_⟩
  refine (θ_run Cert.ReferenceIdeal.defs _ _).mono (fun _ h c => ⟨(h c).1.trans ?_, (h c).2⟩) (Cert.ReferenceIdeal.Hand.run m' ρ')
  obtain ⟨h0, h1, h2, h3, h4, h5⟩ := hagree c
  show Cert.Gcn.network (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) = _
  rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
